-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x32x32x256 : Shape := ⟨5, ![8, 8, 32, 32, 256]⟩
abbrev S8x8x32x32x3 : Shape := ⟨5, ![8, 8, 32, 32, 3]⟩
abbrev S8x8x512x256 : Shape := ⟨4, ![8, 8, 512, 256]⟩
abbrev S8x8x512x3 : Shape := ⟨4, ![8, 8, 512, 3]⟩
abbrev S_ : Shape := ⟨0, ![]⟩

class Facts : Prop where
  bcast_S_S8x8x32x32x256 : S_.BroadcastsInDim S8x8x32x32x256 (![] : Fin 0 → Fin S8x8x32x32x256.rank)
  reducesTo_S8x8x32x32x256_S_d0_1_2_3_4 : S8x8x32x32x256.ReducesTo [0, 1, 2, 3, 4] S_
  h_S_ : 0 < S_.numel
  bcast_S_S8x8x32x32x3 : S_.BroadcastsInDim S8x8x32x32x3 (![] : Fin 0 → Fin S8x8x32x32x3.rank)
  reducesTo_S8x8x32x32x3_S_d0_1_2_3_4 : S8x8x32x32x3.ReducesTo [0, 1, 2, 3, 4] S_
  bcast_S_S8x8x512x256 : S_.BroadcastsInDim S8x8x512x256 (![] : Fin 0 → Fin S8x8x512x256.rank)
  reducesTo_S8x8x512x256_S_d0_1_2_3 : S8x8x512x256.ReducesTo [0, 1, 2, 3] S_
  bcast_S_S8x8x512x3 : S_.BroadcastsInDim S8x8x512x3 (![] : Fin 0 → Fin S8x8x512x3.rank)
  reducesTo_S8x8x512x3_S_d0_1_2_3 : S8x8x512x3.ReducesTo [0, 1, 2, 3] S_

variable [Facts]

def fn_part1 {F : FTy → Type} [FloatOps F] (main_v13 : IVec S_ 1) (main_v16 : IVec S8x8x512x3 1) : IVec S_ 1 :=
  let main_c_5 : IVec S_ 1 := constantI S_ 1 1#1
  let main_v17 : IVec S_ 1 := (fun x v => Host.reduce IntOp.andi x v reducesTo_S8x8x512x3_S_d0_1_2_3 h_S_) main_v16 main_c_5
  let main_v18 : IVec S_ 1 := andi main_v13 main_v17
  main_v18

def fn {F : FTy → Type} [FloatOps F] (main_arg0 : FVec F S8x8x32x32x256 .f32) (main_arg1 : FVec F S8x8x32x32x3 .f32) (main_arg2 : FVec F S8x8x512x256 .f32) (main_arg3 : FVec F S8x8x512x3 .f32) : IVec S_ 1 :=
  let main_v0 : FVec F S8x8x32x32x256 .f32 := Host.absf main_arg0
  let main_cst : FVec F S_ .f32 := constant S_ .f32 0x7F800000#32
  let main_v1 : FVec F S8x8x32x32x256 .f32 := broadcastInDim S8x8x32x32x256 ![] bcast_S_S8x8x32x32x256 main_cst
  let main_v2 : IVec S8x8x32x32x256 1 := cmpf .olt main_v0 main_v1
  let main_c : IVec S_ 1 := constantI S_ 1 1#1
  let main_v3 : IVec S_ 1 := (fun x v => Host.reduce IntOp.andi x v reducesTo_S8x8x32x32x256_S_d0_1_2_3_4 h_S_) main_v2 main_c
  let main_v4 : FVec F S8x8x32x32x3 .f32 := Host.absf main_arg1
  let main_cst_0 : FVec F S_ .f32 := constant S_ .f32 0x7F800000#32
  let main_v5 : FVec F S8x8x32x32x3 .f32 := broadcastInDim S8x8x32x32x3 ![] bcast_S_S8x8x32x32x3 main_cst_0
  let main_v6 : IVec S8x8x32x32x3 1 := cmpf .olt main_v4 main_v5
  let main_c_1 : IVec S_ 1 := constantI S_ 1 1#1
  let main_v7 : IVec S_ 1 := (fun x v => Host.reduce IntOp.andi x v reducesTo_S8x8x32x32x3_S_d0_1_2_3_4 h_S_) main_v6 main_c_1
  let main_v8 : IVec S_ 1 := andi main_v3 main_v7
  let main_v9 : FVec F S8x8x512x256 .f32 := Host.absf main_arg2
  let main_cst_2 : FVec F S_ .f32 := constant S_ .f32 0x7F800000#32
  let main_v10 : FVec F S8x8x512x256 .f32 := broadcastInDim S8x8x512x256 ![] bcast_S_S8x8x512x256 main_cst_2
  let main_v11 : IVec S8x8x512x256 1 := cmpf .olt main_v9 main_v10
  let main_c_3 : IVec S_ 1 := constantI S_ 1 1#1
  let main_v12 : IVec S_ 1 := (fun x v => Host.reduce IntOp.andi x v reducesTo_S8x8x512x256_S_d0_1_2_3 h_S_) main_v11 main_c_3
  let main_v13 : IVec S_ 1 := andi main_v8 main_v12
  let main_v14 : FVec F S8x8x512x3 .f32 := Host.absf main_arg3
  let main_cst_4 : FVec F S_ .f32 := constant S_ .f32 0x7F800000#32
  let main_v15 : FVec F S8x8x512x3 .f32 := broadcastInDim S8x8x512x3 ![] bcast_S_S8x8x512x3 main_cst_4
  let main_v16 : IVec S8x8x512x3 1 := cmpf .olt main_v14 main_v15
  fn_part1 (F := F) main_v13 main_v16
-- ==== Kernel.lean ====
abbrev S8x8x32x32x256 : Shape := ⟨5, ![8, 8, 32, 32, 256]⟩
abbrev S8x8x32x32x3 : Shape := ⟨5, ![8, 8, 32, 32, 3]⟩
abbrev S8x8x512x256 : Shape := ⟨4, ![8, 8, 512, 256]⟩
abbrev S8x8x512x3 : Shape := ⟨4, ![8, 8, 512, 3]⟩
abbrev S8x8x1024x256 : Shape := ⟨4, ![8, 8, 1024, 256]⟩
abbrev S8x8x1024x3 : Shape := ⟨4, ![8, 8, 1024, 3]⟩
abbrev S8x7x1024x256 : Shape := ⟨4, ![8, 7, 1024, 256]⟩
abbrev S8x7x1024x3 : Shape := ⟨4, ![8, 7, 1024, 3]⟩
abbrev S8x7x512x256 : Shape := ⟨4, ![8, 7, 512, 256]⟩
abbrev S8x7x512x3 : Shape := ⟨4, ![8, 7, 512, 3]⟩
abbrev S1x1x1024x256 : Shape := ⟨4, ![1, 1, 1024, 256]⟩
abbrev S1x1x1024x3 : Shape := ⟨4, ![1, 1, 1024, 3]⟩
abbrev S1x1x512x256 : Shape := ⟨4, ![1, 1, 512, 256]⟩
abbrev S1x1x512x3 : Shape := ⟨4, ![1, 1, 512, 3]⟩
abbrev S1024x256 : Shape := ⟨2, ![1024, 256]⟩
abbrev S1024x3 : Shape := ⟨2, ![1024, 3]⟩
abbrev S512x256 : Shape := ⟨2, ![512, 256]⟩
abbrev S512x3 : Shape := ⟨2, ![512, 3]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S8x7x32x32x3 : Shape := ⟨5, ![8, 7, 32, 32, 3]⟩

abbrev nBuf : Space → Nat
  | .hbm => 13
  | .vmem => 12
  | .smem => 0
  | _ => 0

abbrev bufTy : (tb : Table) → Fin (tcTables nBuf tb) → BufTy
  | .hbm, ⟨0, _⟩ => ⟨S8x8x32x32x256, .f32⟩
  | .hbm, ⟨1, _⟩ => ⟨S8x8x32x32x3, .f32⟩
  | .hbm, ⟨2, _⟩ => ⟨S8x8x512x256, .f32⟩
  | .hbm, ⟨3, _⟩ => ⟨S8x8x512x3, .f32⟩
  | .hbm, ⟨4, _⟩ => ⟨S8x8x1024x256, .f32⟩
  | .hbm, ⟨5, _⟩ => ⟨S8x8x1024x3, .f32⟩
  | .hbm, ⟨6, _⟩ => ⟨S8x7x1024x256, .f32⟩
  | .hbm, ⟨7, _⟩ => ⟨S8x7x1024x256, .f32⟩
  | .hbm, ⟨8, _⟩ => ⟨S8x7x1024x3, .f32⟩
  | .hbm, ⟨9, _⟩ => ⟨S8x7x512x256, .f32⟩
  | .hbm, ⟨10, _⟩ => ⟨S8x7x512x3, .f32⟩
  | .hbm, ⟨11, _⟩ => ⟨S8x7x1024x3, .f32⟩
  | .hbm, ⟨12, _⟩ => ⟨S8x7x32x32x3, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x3, .f32⟩
  | .local _ .vmem, ⟨5, _⟩ => ⟨S1x1x1024x3, .f32⟩
  | .local _ .vmem, ⟨6, _⟩ => ⟨S1x1x512x256, .f32⟩
  | .local _ .vmem, ⟨7, _⟩ => ⟨S1x1x512x256, .f32⟩
  | .local _ .vmem, ⟨8, _⟩ => ⟨S1x1x512x3, .f32⟩
  | .local _ .vmem, ⟨9, _⟩ => ⟨S1x1x512x3, .f32⟩
  | .local _ .vmem, ⟨10, _⟩ => ⟨S1x1x1024x3, .f32⟩
  | .local _ .vmem, ⟨11, _⟩ => ⟨S1x1x1024x3, .f32⟩
  | _, _ => ⟨S8x8x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x8x32x32x256_S8x8x1024x256 : S8x8x32x32x256.ShapeCasts S8x8x1024x256
  shapeCasts_S8x8x32x32x3_S8x8x1024x3 : S8x8x32x32x3.ShapeCasts S8x8x1024x3
  slices_S8x8x1024x256_S8x7x1024x256_0_1_0_0 : S8x8x1024x256.Slices ![0, 1, 0, 0] S8x7x1024x256
  slices_S8x8x1024x256_S8x7x1024x256_0_0_0_0 : S8x8x1024x256.Slices ![0, 0, 0, 0] S8x7x1024x256
  slices_S8x8x1024x3_S8x7x1024x3_0_0_0_0 : S8x8x1024x3.Slices ![0, 0, 0, 0] S8x7x1024x3
  slices_S8x8x512x256_S8x7x512x256_0_0_0_0 : S8x8x512x256.Slices ![0, 0, 0, 0] S8x7x512x256
  slices_S8x8x512x3_S8x7x512x3_0_0_0_0 : S8x8x512x3.Slices ![0, 0, 0, 0] S8x7x512x3
  inb_S1x1x1024x256_S1x1x1024x256_0_0_0_0 : ∀ a, (![0, 0, 0, 0] : Fin 4 → Nat) a + S1x1x1024x256.size a ≤ S1x1x1024x256.size a
  h_S1x1x1024x256 : 0 < S1x1x1024x256.numel
  shapeCasts_S1x1x1024x256_S1024x256 : S1x1x1024x256.ShapeCasts S1024x256
  bitsLt_bf16_f32 : FTy.bits .bf16 < FTy.bits .f32
  inb_S1x1x1024x3_S1x1x1024x3_0_0_0_0 : ∀ a, (![0, 0, 0, 0] : Fin 4 → Nat) a + S1x1x1024x3.size a ≤ S1x1x1024x3.size a
  h_S1x1x1024x3 : 0 < S1x1x1024x3.numel
  shapeCasts_S1x1x1024x3_S1024x3 : S1x1x1024x3.ShapeCasts S1024x3
  inb_S1x1x512x256_S1x1x512x256_0_0_0_0 : ∀ a, (![0, 0, 0, 0] : Fin 4 → Nat) a + S1x1x512x256.size a ≤ S1x1x512x256.size a
  h_S1x1x512x256 : 0 < S1x1x512x256.numel
  shapeCasts_S1x1x512x256_S512x256 : S1x1x512x256.ShapeCasts S512x256
  inb_S1x1x512x3_S1x1x512x3_0_0_0_0 : ∀ a, (![0, 0, 0, 0] : Fin 4 → Nat) a + S1x1x512x3.size a ≤ S1x1x512x3.size a
  h_S1x1x512x3 : 0 < S1x1x512x3.numel
  shapeCasts_S1x1x512x3_S512x3 : S1x1x512x3.ShapeCasts S512x3
  reduces_S1024x1024_S1024 : S1024x1024.Reduces [1] S1024
  shapeCasts_S1024_S1024x1 : S1024.ShapeCasts S1024x1
  broadcasts_S1024x1_S1024x1024 : S1024x1.Broadcasts S1024x1024
  reduces_S1024x512_S1024 : S1024x512.Reduces [1] S1024
  broadcasts_S1024x1_S1024x512 : S1024x1.Broadcasts S1024x512
  shapeCasts_S1024x3_S1x1x1024x3 : S1024x3.ShapeCasts S1x1x1024x3
  slices_S8x8x32x32x3_S8x7x32x32x3_0_1_0_0_0 : S8x8x32x32x3.Slices ![0, 1, 0, 0, 0] S8x7x32x32x3
  dot_S1024x256_S1024x256_S1024x1024_1_1_0_0_n_n_wf : DotDims.WF S1024x256 S1024x256 S1024x1024 [1] [1] [0] [0] [] []
  dot_S1024x1024_S1024x3_S1024x3_1_0_0_1_n_n_wf : DotDims.WF S1024x1024 S1024x3 S1024x3 [1] [0] [0] [1] [] []
  dot_S1024x256_S512x256_S1024x512_1_1_0_0_n_n_wf : DotDims.WF S1024x256 S512x256 S1024x512 [1] [1] [0] [0] [] []
  dot_S1024x512_S512x3_S1024x3_1_0_0_1_n_n_wf : DotDims.WF S1024x512 S512x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x256.size a ≤ S8x7x1024x256.size a
  hwx0_0 : ∀ i : grid0.Coords, EltTy.bits .f32 = 32 ∨ (Rect.block (s := S8x7x1024x256) S1x1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x256.size a ≤ S8x7x1024x256.size a
  hwx0_1 : ∀ i : grid0.Coords, EltTy.bits .f32 = 32 ∨ (Rect.block (s := S8x7x1024x256) S1x1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x3.size a ≤ S8x7x1024x3.size a
  hwx0_2 : ∀ i : grid0.Coords, EltTy.bits .f32 = 32 ∨ (Rect.block (s := S8x7x1024x3) S1x1x1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x256.size a ≤ S8x7x512x256.size a
  hwx0_3 : ∀ i : grid0.Coords, EltTy.bits .f32 = 32 ∨ (Rect.block (s := S8x7x512x256) S1x1x512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x3.size a ≤ S8x7x512x3.size a
  hwx0_4 : ∀ i : grid0.Coords, EltTy.bits .f32 = 32 ∨ (Rect.block (s := S8x7x512x3) S1x1x512x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x3.size a ≤ S8x7x1024x3.size a
  hwx0_5 : ∀ i : grid0.Coords, EltTy.bits .f32 = 32 ∨ (Rect.block (s := S8x7x1024x3) S1x1x1024x3.size (cc0_transform_5 i) (hinb0_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x3_S1024x3_1_0_0_1_n_n : DotDims S1024x512 S512x3 S1024x3 where
  lhsContracting := [1]
  rhsContracting := [0]
  lhsNonContracting := [0]
  rhsNonContracting := [1]
  lhsBatch := []
  rhsBatch := []
  wf := dot_S1024x512_S512x3_S1024x3_1_0_0_1_n_n_wf

abbrev win0_0 : Pipeline.Window sig grid0 :=
  Pipeline.Window.ofSpec (Memref.whole main_v2) S1x1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x512x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1x1024x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x8x32x32x256 : Shape := ⟨5, ![8, 8, 32, 32, 256]⟩
abbrev S8x8x32x32x3 : Shape := ⟨5, ![8, 8, 32, 32, 3]⟩
abbrev S8x8x512x256 : Shape := ⟨4, ![8, 8, 512, 256]⟩
abbrev S8x8x512x3 : Shape := ⟨4, ![8, 8, 512, 3]⟩
abbrev S8x8x1024x256 : Shape := ⟨4, ![8, 8, 1024, 256]⟩
abbrev S8x8x1024x3 : Shape := ⟨4, ![8, 8, 1024, 3]⟩
abbrev S8x7x1024x256 : Shape := ⟨4, ![8, 7, 1024, 256]⟩
abbrev S8x7x1024x1024 : Shape := ⟨4, ![8, 7, 1024, 1024]⟩
abbrev S_ : Shape := ⟨0, ![]⟩
abbrev S8x7x1024 : Shape := ⟨3, ![8, 7, 1024]⟩
abbrev S8x7x1024x1 : Shape := ⟨4, ![8, 7, 1024, 1]⟩
abbrev S8x7x1024x3 : Shape := ⟨4, ![8, 7, 1024, 3]⟩
abbrev S8x7x512x256 : Shape := ⟨4, ![8, 7, 512, 256]⟩
abbrev S8x7x1024x512 : Shape := ⟨4, ![8, 7, 1024, 512]⟩
abbrev S8x7x512x3 : Shape := ⟨4, ![8, 7, 512, 3]⟩
abbrev S8x7x32x32x3 : Shape := ⟨5, ![8, 7, 32, 32, 3]⟩

abbrev nBuf : Space → Nat
  | .hbm => 51
  | .vmem => 0
  | .smem => 0
  | _ => 0

abbrev bufTy : (tb : Table) → Fin (tcTables nBuf tb) → BufTy
  | .hbm, ⟨0, _⟩ => ⟨S8x8x32x32x256, .f32⟩
  | .hbm, ⟨1, _⟩ => ⟨S8x8x32x32x3, .f32⟩
  | .hbm, ⟨2, _⟩ => ⟨S8x8x512x256, .f32⟩
  | .hbm, ⟨3, _⟩ => ⟨S8x8x512x3, .f32⟩
  | .hbm, ⟨4, _⟩ => ⟨S8x8x1024x256, .f32⟩
  | .hbm, ⟨5, _⟩ => ⟨S8x8x1024x3, .f32⟩
  | .hbm, ⟨6, _⟩ => ⟨S8x7x1024x256, .f32⟩
  | .hbm, ⟨7, _⟩ => ⟨S8x7x1024x256, .f32⟩
  | .hbm, ⟨8, _⟩ => ⟨S8x7x1024x1024, .f32⟩
  | .hbm, ⟨9, _⟩ => ⟨S_, .f32⟩
  | .hbm, ⟨10, _⟩ => ⟨S8x7x1024, .f32⟩
  | .hbm, ⟨11, _⟩ => ⟨S_, .f32⟩
  | .hbm, ⟨12, _⟩ => ⟨S8x7x1024, .f32⟩
  | .hbm, ⟨13, _⟩ => ⟨S8x7x1024, .f32⟩
  | .hbm, ⟨14, _⟩ => ⟨S8x7x1024x1, .f32⟩
  | .hbm, ⟨15, _⟩ => ⟨S8x7x1024x1024, .f32⟩
  | .hbm, ⟨16, _⟩ => ⟨S8x7x1024x1024, .f32⟩
  | .hbm, ⟨17, _⟩ => ⟨S8x7x1024x1024, .f32⟩
  | .hbm, ⟨18, _⟩ => ⟨S_, .f32⟩
  | .hbm, ⟨19, _⟩ => ⟨S8x7x1024, .f32⟩
  | .hbm, ⟨20, _⟩ => ⟨S8x7x1024x1, .f32⟩
  | .hbm, ⟨21, _⟩ => ⟨S8x7x1024x1024, .f32⟩
  | .hbm, ⟨22, _⟩ => ⟨S8x7x1024x1024, .f32⟩
  | .hbm, ⟨23, _⟩ => ⟨S8x7x1024x3, .f32⟩
  | .hbm, ⟨24, _⟩ => ⟨S8x7x1024x3, .f32⟩
  | .hbm, ⟨25, _⟩ => ⟨S8x7x512x256, .f32⟩
  | .hbm, ⟨26, _⟩ => ⟨S8x7x1024x512, .f32⟩
  | .hbm, ⟨27, _⟩ => ⟨S_, .f32⟩
  | .hbm, ⟨28, _⟩ => ⟨S8x7x1024, .f32⟩
  | .hbm, ⟨29, _⟩ => ⟨S_, .f32⟩
  | .hbm, ⟨30, _⟩ => ⟨S8x7x1024, .f32⟩
  | .hbm, ⟨31, _⟩ => ⟨S8x7x1024, .f32⟩
  | .hbm, ⟨32, _⟩ => ⟨S8x7x1024x1, .f32⟩
  | .hbm, ⟨33, _⟩ => ⟨S8x7x1024x512, .f32⟩
  | .hbm, ⟨34, _⟩ => ⟨S8x7x1024x512, .f32⟩
  | .hbm, ⟨35, _⟩ => ⟨S8x7x1024x512, .f32⟩
  | .hbm, ⟨36, _⟩ => ⟨S_, .f32⟩
  | .hbm, ⟨37, _⟩ => ⟨S8x7x1024, .f32⟩
  | .hbm, ⟨38, _⟩ => ⟨S8x7x1024x1, .f32⟩
  | .hbm, ⟨39, _⟩ => ⟨S8x7x1024x512, .f32⟩
  | .hbm, ⟨40, _⟩ => ⟨S8x7x1024x512, .f32⟩
  | .hbm, ⟨41, _⟩ => ⟨S8x7x512x3, .f32⟩
  | .hbm, ⟨42, _⟩ => ⟨S8x7x1024x3, .f32⟩
  | .hbm, ⟨43, _⟩ => ⟨S_, .f32⟩
  | .hbm, ⟨44, _⟩ => ⟨S8x7x1024x3, .f32⟩
  | .hbm, ⟨45, _⟩ => ⟨S8x7x1024x3, .f32⟩
  | .hbm, ⟨46, _⟩ => ⟨S_, .f32⟩
  | .hbm, ⟨47, _⟩ => ⟨S8x7x1024x3, .f32⟩
  | .hbm, ⟨48, _⟩ => ⟨S8x7x1024x3, .f32⟩
  | .hbm, ⟨49, _⟩ => ⟨S8x7x1024x3, .f32⟩
  | .hbm, ⟨50, _⟩ => ⟨S8x7x32x32x3, .f32⟩
  | _, _ => ⟨S8x8x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  shapeCasts_S8x8x32x32x256_S8x8x1024x256 : S8x8x32x32x256.ShapeCasts S8x8x1024x256
  shapeCasts_S8x8x32x32x3_S8x8x1024x3 : S8x8x32x32x3.ShapeCasts S8x8x1024x3
  slices_S8x8x1024x256_S8x7x1024x256_0_1_0_0 : S8x8x1024x256.Slices ![0, 1, 0, 0] S8x7x1024x256
  slices_S8x8x1024x256_S8x7x1024x256_0_0_0_0 : S8x8x1024x256.Slices ![0, 0, 0, 0] S8x7x1024x256
  reducesTo_S8x7x1024x1024_S8x7x1024_d3 : S8x7x1024x1024.ReducesTo [3] S8x7x1024
  h_S_ : 0 < S_.numel
  bcast_S_S8x7x1024 : S_.BroadcastsInDim S8x7x1024 (![] : Fin 0 → Fin S8x7x1024.rank)
  bcast_S8x7x1024_S8x7x1024x1_0_1_2 : S8x7x1024.BroadcastsInDim S8x7x1024x1 (![0, 1, 2] : Fin 3 → Fin S8x7x1024x1.rank)
  bcast_S8x7x1024x1_S8x7x1024x1024_0_1_2_3 : S8x7x1024x1.BroadcastsInDim S8x7x1024x1024 (![0, 1, 2, 3] : Fin 4 → Fin S8x7x1024x1024.rank)
  slices_S8x8x1024x3_S8x7x1024x3_0_0_0_0 : S8x8x1024x3.Slices ![0, 0, 0, 0] S8x7x1024x3
  slices_S8x8x512x256_S8x7x512x256_0_0_0_0 : S8x8x512x256.Slices ![0, 0, 0, 0] S8x7x512x256
  reducesTo_S8x7x1024x512_S8x7x1024_d3 : S8x7x1024x512.ReducesTo [3] S8x7x1024
  bcast_S8x7x1024x1_S8x7x1024x512_0_1_2_3 : S8x7x1024x1.BroadcastsInDim S8x7x1024x512 (![0, 1, 2, 3] : Fin 4 → Fin S8x7x1024x512.rank)
  slices_S8x8x512x3_S8x7x512x3_0_0_0_0 : S8x8x512x3.Slices ![0, 0, 0, 0] S8x7x512x3
  bcast_S_S8x7x1024x3 : S_.BroadcastsInDim S8x7x1024x3 (![] : Fin 0 → Fin S8x7x1024x3.rank)
  slices_S8x8x32x32x3_S8x7x32x32x3_0_1_0_0_0 : S8x8x32x32x3.Slices ![0, 1, 0, 0, 0] S8x7x32x32x3
  dot_S8x7x1024x256_S8x7x1024x256_S8x7x1024x1024_3_3_2_2_01_01_wf : DotDims.WF S8x7x1024x256 S8x7x1024x256 S8x7x1024x1024 [3] [3] [2] [2] [0, 1] [0, 1]
  dot_S8x7x1024x1024_S8x7x1024x3_S8x7x1024x3_3_2_2_3_01_01_wf : DotDims.WF S8x7x1024x1024 S8x7x1024x3 S8x7x1024x3 [3] [2] [2] [3] [0, 1] [0, 1]
  dot_S8x7x1024x256_S8x7x512x256_S8x7x1024x512_3_3_2_2_01_01_wf : DotDims.WF S8x7x1024x256 S8x7x512x256 S8x7x1024x512 [3] [3] [2] [2] [0, 1] [0, 1]
  dot_S8x7x1024x512_S8x7x512x3_S8x7x1024x3_3_2_2_3_01_01_wf : DotDims.WF S8x7x1024x512 S8x7x512x3 S8x7x1024x3 [3] [2] [2] [3] [0, 1] [0, 1]

variable [Facts₀]

def dot_S8x7x1024x256_S8x7x1024x256_S8x7x1024x1024_3_3_2_2_01_01 : DotDims S8x7x1024x256 S8x7x1024x256 S8x7x1024x1024 where
  lhsContracting := [3]
  rhsContracting := [3]
  lhsNonContracting := [2]
  rhsNonContracting := [2]
  lhsBatch := [0, 1]
  rhsBatch := [0, 1]
  wf := dot_S8x7x1024x256_S8x7x1024x256_S8x7x1024x1024_3_3_2_2_01_01_wf
def dot_S8x7x1024x1024_S8x7x1024x3_S8x7x1024x3_3_2_2_3_01_01 : DotDims S8x7x1024x1024 S8x7x1024x3 S8x7x1024x3 where
  lhsContracting := [3]
  rhsContracting := [2]
  lhsNonContracting := [2]
  rhsNonContracting := [3]
  lhsBatch := [0, 1]
  rhsBatch := [0, 1]
  wf := dot_S8x7x1024x1024_S8x7x1024x3_S8x7x1024x3_3_2_2_3_01_01_wf
def dot_S8x7x1024x256_S8x7x512x256_S8x7x1024x512_3_3_2_2_01_01 : DotDims S8x7x1024x256 S8x7x512x256 S8x7x1024x512 where
  lhsContracting := [3]
  rhsContracting := [3]
  lhsNonContracting := [2]
  rhsNonContracting := [2]
  lhsBatch := [0, 1]
  rhsBatch := [0, 1]
  wf := dot_S8x7x1024x256_S8x7x512x256_S8x7x1024x512_3_3_2_2_01_01_wf
def dot_S8x7x1024x512_S8x7x512x3_S8x7x1024x3_3_2_2_3_01_01 : DotDims S8x7x1024x512 S8x7x512x3 S8x7x1024x3 where
  lhsContracting := [3]
  rhsContracting := [2]
  lhsNonContracting := [2]
  rhsNonContracting := [3]
  lhsBatch := [0, 1]
  rhsBatch := [0, 1]
  wf := dot_S8x7x1024x512_S8x7x512x3_S8x7x1024x3_3_2_2_3_01_01_wf

class Facts : Prop extends Facts₀ where

variable [Facts]
-- ==== Proof.Attention.lean ====
/-
  The mathematics both programs compute: attention of one frame's tokens over the previous frame's tokens and over
  a memory, blended.

  For a batch entry b and a frame pair t, a token p of the later frame carries a query row q[p, ·]. Against the
  N key rows r[κ, ·] of the earlier frame its logits are the inner products L κ = ∑ j, q[p, j] · r[κ, j]; the
  row's softmax weights are exp (L κ − m) / ∑ κ', exp (L κ' − m) with m the row's maximum; the reconstruction is
  the weighted sum of the value rows, ∑ κ, weight κ · v[κ, c]. The same is done against the M memory keys and
  memory values, and the result is 0.8 · (frame reconstruction) + 0.2 · (memory reconstruction), the two
  coefficients being the f32 words both programs carry.

  Everything is stated on the extended reals with the operations both programs apply (the exponential and the
  quotient of the ideal reading), over plain `Fin`-indexed rows, so that the same functions serve a single
  [1024, ·] block and the whole [8, 7, 1024, ·] array. The two words of −∞ and the two coefficient words are
  kept as words: both programs carry the same ones and nothing here evaluates them.
-/
import Idealize.ShloMosaic.PureOps.Ideal
import Idealize.ShloMosaic.Lib.ValueIdx

noncomputable section

open scoped BigOperators

namespace Cert.Attention

open Idealize.ShloMosaic Idealize.ShloMosaic.ValueIdx

/-- The inner product of a query row and a key row. -/
def logit {J : ℕ} (q k : Fin J → EReal) : EReal := ∑ j, q j * k j

/-- A row's maximum as both programs take it: the running maximum over the row started from the word of −∞,
    joined once more with that word. -/
def rowMax {N : ℕ} (L : Fin N → EReal) : EReal :=
  max (Ideal.ofBits .f32 0xFF800000#32)
    ((Finset.univ : Finset (Fin N)).fold max (Ideal.ofBits .f32 0xFF800000#32) L)

/-- One logit's exponential after the row's maximum is subtracted. -/
def expShift {N : ℕ} (L : Fin N → EReal) (κ : Fin N) : EReal := Ideal.exp (L κ - rowMax L)

/-- One softmax weight: the shifted exponential over the row's sum of them. -/
def weight {N : ℕ} (L : Fin N → EReal) (κ : Fin N) : EReal := Ideal.div (expShift L κ) (∑ κ', expShift L κ')

/-- The softmax-weighted sum of a column of values. -/
def attend {N : ℕ} (L : Fin N → EReal) (V : Fin N → EReal) : EReal := ∑ κ, weight L κ * V κ

/-- The blend of the frame reconstruction `a` and the memory reconstruction `b`: the f32 words of 0.8 and 0.2. -/
def blend (a b : EReal) : EReal :=
  Ideal.ofBits .f32 0x3F4CCCCD#32 * a + Ideal.ofBits .f32 0x3E4CCCCD#32 * b

/-- One frame pair: the result at token `p` and channel `c`, from the later frame's rows `q`, the earlier frame's
    rows `r` and values `v`, and the memory's keys `mk` and values `mv`. -/
def cell {P J N M C : ℕ} (q : Fin P → Fin J → EReal) (r : Fin N → Fin J → EReal) (v : Fin N → Fin C → EReal)
    (mk : Fin M → Fin J → EReal) (mv : Fin M → Fin C → EReal) (p : Fin P) (c : Fin C) : EReal :=
  blend (attend (fun κ => logit (q p) (r κ)) (fun κ => v κ c))
    (attend (fun μ => logit (q p) (mk μ)) (fun μ => mv μ c))

/-- The whole result at batch entry `b`, frame pair `t`, token `p`, channel `c`: the cell of the five arrays'
    slabs at (b, t). -/
def at4 (q r : (⟨4, ![8, 7, 1024, 256]⟩ : Shape).Idx → EReal) (v : (⟨4, ![8, 7, 1024, 3]⟩ : Shape).Idx → EReal)
    (mk : (⟨4, ![8, 7, 512, 256]⟩ : Shape).Idx → EReal) (mv : (⟨4, ![8, 7, 512, 3]⟩ : Shape).Idx → EReal)
    (b : Fin 8) (t : Fin 7) (p : Fin 1024) (c : Fin 3) : EReal :=
  cell (fun p j => q (ix4 b t p j)) (fun κ j => r (ix4 b t κ j)) (fun κ c => v (ix4 b t κ c))
    (fun μ j => mk (ix4 b t μ j)) (fun μ c => mv (ix4 b t μ c)) p c

/-- The whole result array, as one function of the five sliced arrays. -/
def whole (q r : (⟨4, ![8, 7, 1024, 256]⟩ : Shape).Idx → EReal) (v : (⟨4, ![8, 7, 1024, 3]⟩ : Shape).Idx → EReal)
    (mk : (⟨4, ![8, 7, 512, 256]⟩ : Shape).Idx → EReal) (mv : (⟨4, ![8, 7, 512, 3]⟩ : Shape).Idx → EReal) :
    (⟨4, ![8, 7, 1024, 3]⟩ : Shape).Idx → EReal :=
  fun i => at4 q r v mk mv (i 0) (i 1) (i 2) (i 3)

theorem whole_ix4 (q r : (⟨4, ![8, 7, 1024, 256]⟩ : Shape).Idx → EReal) (v : (⟨4, ![8, 7, 1024, 3]⟩ : Shape).Idx → EReal)
    (mk : (⟨4, ![8, 7, 512, 256]⟩ : Shape).Idx → EReal) (mv : (⟨4, ![8, 7, 512, 3]⟩ : Shape).Idx → EReal)
    (b : Fin 8) (t : Fin 7) (p : Fin 1024) (c : Fin 3) :
    whole q r v mk mv (ix4 b t p c) = at4 q r v mk mv b t p c := rfl

end Cert.Attention

end
-- ==== Proof.ReferenceValue.lean ====
/-
  The reference program's first result, read at one index.

  For a batch entry b, a frame pair t and a token p of the later frame, the program forms the row of logits
  L κ = ∑ j, q[p, j] · r[κ, j] against the earlier frame's key rows, takes the row's maximum m (a running maximum
  from the word of −∞, joined once more with that word), the shifted exponentials exp (L κ − m), their sum over the
  row (started from the zero word, which adds nothing), the weights exp (L κ − m) / ∑ κ', exp (L κ' − m), and the
  weighted sum of the value column, ∑ κ, weight κ · v[κ, c]. The same is done against the memory's key rows and value
  column, and the result is 0.8 · (first sum) + 0.2 · (second sum) with the two coefficients kept as the words
  carried. Each lemma below reads one of these stages at explicit coordinates; the last two assemble them into the
  specification's value at (b, t, p, c) and into the whole array.
-/
import proofs.«101743_j90787018703342_1_alg».proof.Proof.Gen.ReferenceIdeal.Read
import proofs.«101743_j90787018703342_1_alg».proof.Proof.Attention

noncomputable section
open scoped BigOperators
namespace Cert.Attention.Reference
open Cert.ReferenceIdeal Cert.ReferenceIdeal.Read Idealize.ShloMosaic Idealize.ShloMosaic.ValueIdx

/-- A logit: the inner product of the query row of token p with the key row of token κ. -/
theorem logits_at (x0 : (⟨S8x8x32x32x256, .f32⟩ : BufTy).Contents (Elt Ideal)) (b : Fin 8) (t : Fin 7) (p κ : Fin 1024) :
    val_main_v4 (F := Ideal) x0 (ix4 b t p κ)
      = logit (fun j => val_main_v2 (F := Ideal) x0 (ix4 b t p j)) (fun j => val_main_v3 (F := Ideal) x0 (ix4 b t κ j)) := by
  rw [val_main_v4_apply]
  unfold logit
  generalize val_main_v2 (F := Ideal) x0 = Q
  generalize val_main_v3 (F := Ideal) x0 = R
  refine Finset.sum_congr rfl fun k _ => ?_
  have el : lidx_main_v4 (ix4 b t p κ) k = ix4 b t p k := funext fun a => Fin.ext (by match a with | ⟨0, _⟩ => rfl | ⟨1, _⟩ => rfl | ⟨2, _⟩ => rfl | ⟨3, _⟩ => rfl)
  have er : ridx_main_v4 (ix4 b t p κ) k = ix4 b t κ k := funext fun a => Fin.ext (by match a with | ⟨0, _⟩ => rfl | ⟨1, _⟩ => rfl | ⟨2, _⟩ => rfl | ⟨3, _⟩ => rfl)
  rw [el, er]

/-- The running maximum of a row of logits, started from the word of −∞. -/
theorem rowfold_at (x0 : (⟨S8x8x32x32x256, .f32⟩ : BufTy).Contents (Elt Ideal)) (b : Fin 8) (t : Fin 7) (p : Fin 1024) :
    val_main_v5 (F := Ideal) x0 (ix3 b t p)
      = (Finset.univ : Finset (Fin 1024)).fold max (Ideal.ofBits .f32 0xFF800000#32)
          (fun κ => val_main_v4 (F := Ideal) x0 (ix4 b t p κ)) := by
  unfold val_main_v5
  generalize val_main_v4 (F := Ideal) x0 = L
  have h : S8x7x1024x1024.Reduces [3] S8x7x1024 := by decide
  refine (Host.reduce_eq_fold_single (FloatOps.maximumf (F := Ideal) (φ := .f32)) L _ _ h _ (ix3 b t p)).trans ?_
  have e : (L ∘ h.lift (ix3 b t p)) = fun κ : Fin 1024 => L (ix4 b t p κ) :=
    funext fun κ => congrArg L (funext fun a => Fin.ext (by match a with | ⟨0, _⟩ => rfl | ⟨1, _⟩ => rfl | ⟨2, _⟩ => rfl | ⟨3, _⟩ => rfl))
  exact congrArg (fun f => Finset.fold max (Ideal.ofBits .f32 0xFF800000#32) f (Finset.univ : Finset (Fin 1024))) e

/-- The row's maximum: the running maximum joined once more with the word of −∞. -/
theorem rowmax_at (x0 : (⟨S8x8x32x32x256, .f32⟩ : BufTy).Contents (Elt Ideal)) (b : Fin 8) (t : Fin 7) (p : Fin 1024) :
    val_main_v7 (F := Ideal) x0 (ix3 b t p)
      = rowMax (fun κ => val_main_v4 (F := Ideal) x0 (ix4 b t p κ)) := by
  rw [val_main_v7_apply, val_main_v6_apply, val_main_cst_0_apply, rowfold_at]
  generalize val_main_v4 (F := Ideal) x0 = L
  rfl

/-- A logit's exponential after the row's maximum is subtracted. -/
theorem expshift_at (x0 : (⟨S8x8x32x32x256, .f32⟩ : BufTy).Contents (Elt Ideal)) (b : Fin 8) (t : Fin 7) (p κ : Fin 1024) :
    val_main_v11 (F := Ideal) x0 (ix4 b t p κ)
      = expShift (fun κ' => val_main_v4 (F := Ideal) x0 (ix4 b t p κ')) κ := by
  rw [val_main_v11_apply, val_main_v10_apply, val_main_v9_apply, val_main_v8_apply]
  have e : idx_main_v8 (idx_main_v9 (ix4 b t p κ)) = ix3 b t p := funext fun a => Fin.ext (by match a with | ⟨0, _⟩ => rfl | ⟨1, _⟩ => rfl | ⟨2, _⟩ => rfl)
  rw [e, rowmax_at]
  generalize val_main_v4 (F := Ideal) x0 = L
  rfl

/-- The row's sum of shifted exponentials: the sum starts from the zero word, which adds nothing. -/
theorem rowsum_at (x0 : (⟨S8x8x32x32x256, .f32⟩ : BufTy).Contents (Elt Ideal)) (b : Fin 8) (t : Fin 7) (p : Fin 1024) :
    val_main_v12 (F := Ideal) x0 (ix3 b t p)
      = ∑ κ : Fin 1024, expShift (fun κ' => val_main_v4 (F := Ideal) x0 (ix4 b t p κ')) κ := by
  rw [val_main_v12_apply, val_main_cst_1_apply, Ideal.ofBits_def, Ideal.ofBits_zero_f32, zero_add]
  refine Finset.sum_congr rfl fun k _ => ?_
  have e : idx_main_v12 (ix3 b t p) k = ix4 b t p k := funext fun a => Fin.ext (by match a with | ⟨0, _⟩ => rfl | ⟨1, _⟩ => rfl | ⟨2, _⟩ => rfl | ⟨3, _⟩ => rfl)
  rw [e, expshift_at]

/-- A softmax weight: the shifted exponential over the row's sum. -/
theorem weight_at (x0 : (⟨S8x8x32x32x256, .f32⟩ : BufTy).Contents (Elt Ideal)) (b : Fin 8) (t : Fin 7) (p κ : Fin 1024) :
    val_main_v15 (F := Ideal) x0 (ix4 b t p κ)
      = weight (fun κ' => val_main_v4 (F := Ideal) x0 (ix4 b t p κ')) κ := by
  rw [val_main_v15_apply, val_main_v14_apply, val_main_v13_apply]
  have e : idx_main_v13 (idx_main_v14 (ix4 b t p κ)) = ix3 b t p := funext fun a => Fin.ext (by match a with | ⟨0, _⟩ => rfl | ⟨1, _⟩ => rfl | ⟨2, _⟩ => rfl)
  rw [e, rowsum_at, expshift_at]
  generalize val_main_v4 (F := Ideal) x0 = L
  rfl

/-- The frame reconstruction: the weighted sum of the value column over the earlier frame's tokens. -/
theorem frame_at (x0 : (⟨S8x8x32x32x256, .f32⟩ : BufTy).Contents (Elt Ideal)) (x1 : (⟨S8x8x32x32x3, .f32⟩ : BufTy).Contents (Elt Ideal)) (b : Fin 8) (t : Fin 7) (p : Fin 1024) (c : Fin 3) :
    val_main_v17 (F := Ideal) x0 x1 (ix4 b t p c)
      = attend (fun κ => logit (fun j => val_main_v2 (F := Ideal) x0 (ix4 b t p j)) (fun j => val_main_v3 (F := Ideal) x0 (ix4 b t κ j)))
          (fun κ => val_main_v16 (F := Ideal) x1 (ix4 b t κ c)) := by
  rw [val_main_v17_apply]
  have eL : (fun κ => logit (fun j => val_main_v2 (F := Ideal) x0 (ix4 b t p j)) (fun j => val_main_v3 (F := Ideal) x0 (ix4 b t κ j)))
      = fun κ : Fin 1024 => val_main_v4 (F := Ideal) x0 (ix4 b t p κ) := funext fun κ => (logits_at x0 b t p κ).symm
  rw [eL]
  unfold attend
  refine Finset.sum_congr rfl fun k _ => ?_
  have el : lidx_main_v17 (ix4 b t p c) k = ix4 b t p k := funext fun a => Fin.ext (by match a with | ⟨0, _⟩ => rfl | ⟨1, _⟩ => rfl | ⟨2, _⟩ => rfl | ⟨3, _⟩ => rfl)
  have er : ridx_main_v17 (ix4 b t p c) k = ix4 b t k c := funext fun a => Fin.ext (by match a with | ⟨0, _⟩ => rfl | ⟨1, _⟩ => rfl | ⟨2, _⟩ => rfl | ⟨3, _⟩ => rfl)
  rw [el, er, weight_at]

/-- A memory logit: the inner product of the query row of token p with the memory key row μ. -/
theorem mlogits_at (x0 : (⟨S8x8x32x32x256, .f32⟩ : BufTy).Contents (Elt Ideal)) (x2 : (⟨S8x8x512x256, .f32⟩ : BufTy).Contents (Elt Ideal)) (b : Fin 8) (t : Fin 7) (p : Fin 1024) (μ : Fin 512) :
    val_main_v19 (F := Ideal) x0 x2 (ix4 b t p μ)
      = logit (fun j => val_main_v2 (F := Ideal) x0 (ix4 b t p j)) (fun j => val_main_v18 (F := Ideal) x2 (ix4 b t μ j)) := by
  rw [val_main_v19_apply]
  unfold logit
  generalize val_main_v2 (F := Ideal) x0 = Q
  generalize val_main_v18 (F := Ideal) x2 = K
  refine Finset.sum_congr rfl fun k _ => ?_
  have el : lidx_main_v19 (ix4 b t p μ) k = ix4 b t p k := funext fun a => Fin.ext (by match a with | ⟨0, _⟩ => rfl | ⟨1, _⟩ => rfl | ⟨2, _⟩ => rfl | ⟨3, _⟩ => rfl)
  have er : ridx_main_v19 (ix4 b t p μ) k = ix4 b t μ k := funext fun a => Fin.ext (by match a with | ⟨0, _⟩ => rfl | ⟨1, _⟩ => rfl | ⟨2, _⟩ => rfl | ⟨3, _⟩ => rfl)
  rw [el, er]

/-- The running maximum of a row of memory logits, started from the word of −∞. -/
theorem mrowfold_at (x0 : (⟨S8x8x32x32x256, .f32⟩ : BufTy).Contents (Elt Ideal)) (x2 : (⟨S8x8x512x256, .f32⟩ : BufTy).Contents (Elt Ideal)) (b : Fin 8) (t : Fin 7) (p : Fin 1024) :
    val_main_v20 (F := Ideal) x0 x2 (ix3 b t p)
      = (Finset.univ : Finset (Fin 512)).fold max (Ideal.ofBits .f32 0xFF800000#32)
          (fun μ => val_main_v19 (F := Ideal) x0 x2 (ix4 b t p μ)) := by
  unfold val_main_v20
  generalize val_main_v19 (F := Ideal) x0 x2 = L
  have h : S8x7x1024x512.Reduces [3] S8x7x1024 := by decide
  refine (Host.reduce_eq_fold_single (FloatOps.maximumf (F := Ideal) (φ := .f32)) L _ _ h _ (ix3 b t p)).trans ?_
  have e : (L ∘ h.lift (ix3 b t p)) = fun μ : Fin 512 => L (ix4 b t p μ) :=
    funext fun μ => congrArg L (funext fun a => Fin.ext (by match a with | ⟨0, _⟩ => rfl | ⟨1, _⟩ => rfl | ⟨2, _⟩ => rfl | ⟨3, _⟩ => rfl))
  exact congrArg (fun f => Finset.fold max (Ideal.ofBits .f32 0xFF800000#32) f (Finset.univ : Finset (Fin 512))) e

/-- The memory row's maximum. -/
theorem mrowmax_at (x0 : (⟨S8x8x32x32x256, .f32⟩ : BufTy).Contents (Elt Ideal)) (x2 : (⟨S8x8x512x256, .f32⟩ : BufTy).Contents (Elt Ideal)) (b : Fin 8) (t : Fin 7) (p : Fin 1024) :
    val_main_v22 (F := Ideal) x0 x2 (ix3 b t p)
      = rowMax (fun μ => val_main_v19 (F := Ideal) x0 x2 (ix4 b t p μ)) := by
  rw [val_main_v22_apply, val_main_v21_apply, val_main_cst_3_apply, mrowfold_at]
  generalize val_main_v19 (F := Ideal) x0 x2 = L
  rfl

/-- A memory logit's exponential after the row's maximum is subtracted. -/
theorem mexpshift_at (x0 : (⟨S8x8x32x32x256, .f32⟩ : BufTy).Contents (Elt Ideal)) (x2 : (⟨S8x8x512x256, .f32⟩ : BufTy).Contents (Elt Ideal)) (b : Fin 8) (t : Fin 7) (p : Fin 1024) (μ : Fin 512) :
    val_main_v26 (F := Ideal) x0 x2 (ix4 b t p μ)
      = expShift (fun μ' => val_main_v19 (F := Ideal) x0 x2 (ix4 b t p μ')) μ := by
  rw [val_main_v26_apply, val_main_v25_apply, val_main_v24_apply, val_main_v23_apply]
  have e : idx_main_v23 (idx_main_v24 (ix4 b t p μ)) = ix3 b t p := funext fun a => Fin.ext (by match a with | ⟨0, _⟩ => rfl | ⟨1, _⟩ => rfl | ⟨2, _⟩ => rfl)
  rw [e, mrowmax_at]
  generalize val_main_v19 (F := Ideal) x0 x2 = L
  rfl

/-- The memory row's sum of shifted exponentials. -/
theorem mrowsum_at (x0 : (⟨S8x8x32x32x256, .f32⟩ : BufTy).Contents (Elt Ideal)) (x2 : (⟨S8x8x512x256, .f32⟩ : BufTy).Contents (Elt Ideal)) (b : Fin 8) (t : Fin 7) (p : Fin 1024) :
    val_main_v27 (F := Ideal) x0 x2 (ix3 b t p)
      = ∑ μ : Fin 512, expShift (fun μ' => val_main_v19 (F := Ideal) x0 x2 (ix4 b t p μ')) μ := by
  rw [val_main_v27_apply, val_main_cst_4_apply, Ideal.ofBits_def, Ideal.ofBits_zero_f32, zero_add]
  refine Finset.sum_congr rfl fun k _ => ?_
  have e : idx_main_v27 (ix3 b t p) k = ix4 b t p k := funext fun a => Fin.ext (by match a with | ⟨0, _⟩ => rfl | ⟨1, _⟩ => rfl | ⟨2, _⟩ => rfl | ⟨3, _⟩ => rfl)
  rw [e, mexpshift_at]

/-- A memory softmax weight. -/
theorem mweight_at (x0 : (⟨S8x8x32x32x256, .f32⟩ : BufTy).Contents (Elt Ideal)) (x2 : (⟨S8x8x512x256, .f32⟩ : BufTy).Contents (Elt Ideal)) (b : Fin 8) (t : Fin 7) (p : Fin 1024) (μ : Fin 512) :
    val_main_v30 (F := Ideal) x0 x2 (ix4 b t p μ)
      = weight (fun μ' => val_main_v19 (F := Ideal) x0 x2 (ix4 b t p μ')) μ := by
  rw [val_main_v30_apply, val_main_v29_apply, val_main_v28_apply]
  have e : idx_main_v28 (idx_main_v29 (ix4 b t p μ)) = ix3 b t p := funext fun a => Fin.ext (by match a with | ⟨0, _⟩ => rfl | ⟨1, _⟩ => rfl | ⟨2, _⟩ => rfl)
  rw [e, mrowsum_at, mexpshift_at]
  generalize val_main_v19 (F := Ideal) x0 x2 = L
  rfl

/-- The memory reconstruction: the weighted sum of the memory value column. -/
theorem memory_at (x0 : (⟨S8x8x32x32x256, .f32⟩ : BufTy).Contents (Elt Ideal)) (x2 : (⟨S8x8x512x256, .f32⟩ : BufTy).Contents (Elt Ideal)) (x3 : (⟨S8x8x512x3, .f32⟩ : BufTy).Contents (Elt Ideal)) (b : Fin 8) (t : Fin 7) (p : Fin 1024) (c : Fin 3) :
    val_main_v32 (F := Ideal) x0 x2 x3 (ix4 b t p c)
      = attend (fun μ => logit (fun j => val_main_v2 (F := Ideal) x0 (ix4 b t p j)) (fun j => val_main_v18 (F := Ideal) x2 (ix4 b t μ j)))
          (fun μ => val_main_v31 (F := Ideal) x3 (ix4 b t μ c)) := by
  rw [val_main_v32_apply]
  have eL : (fun μ => logit (fun j => val_main_v2 (F := Ideal) x0 (ix4 b t p j)) (fun j => val_main_v18 (F := Ideal) x2 (ix4 b t μ j)))
      = fun μ : Fin 512 => val_main_v19 (F := Ideal) x0 x2 (ix4 b t p μ) := funext fun μ => (mlogits_at x0 x2 b t p μ).symm
  rw [eL]
  unfold attend
  refine Finset.sum_congr rfl fun k _ => ?_
  have el : lidx_main_v32 (ix4 b t p c) k = ix4 b t p k := funext fun a => Fin.ext (by match a with | ⟨0, _⟩ => rfl | ⟨1, _⟩ => rfl | ⟨2, _⟩ => rfl | ⟨3, _⟩ => rfl)
  have er : ridx_main_v32 (ix4 b t p c) k = ix4 b t k c := funext fun a => Fin.ext (by match a with | ⟨0, _⟩ => rfl | ⟨1, _⟩ => rfl | ⟨2, _⟩ => rfl | ⟨3, _⟩ => rfl)
  rw [el, er, mweight_at]

/-- The result at one index: 0.8 · (frame reconstruction) + 0.2 · (memory reconstruction), the coefficients as the words carried. -/
theorem result_at (x0 : (⟨S8x8x32x32x256, .f32⟩ : BufTy).Contents (Elt Ideal)) (x1 : (⟨S8x8x32x32x3, .f32⟩ : BufTy).Contents (Elt Ideal))
    (x2 : (⟨S8x8x512x256, .f32⟩ : BufTy).Contents (Elt Ideal)) (x3 : (⟨S8x8x512x3, .f32⟩ : BufTy).Contents (Elt Ideal))
    (b : Fin 8) (t : Fin 7) (p : Fin 1024) (c : Fin 3) :
    val_main_v37 (F := Ideal) x0 x1 x2 x3 (ix4 b t p c)
      = at4 (val_main_v2 (F := Ideal) x0) (val_main_v3 (F := Ideal) x0) (val_main_v16 (F := Ideal) x1)
          (val_main_v18 (F := Ideal) x2) (val_main_v31 (F := Ideal) x3) b t p c := by
  rw [val_main_v37_apply, val_main_v34_apply, val_main_v36_apply, val_main_v33_apply, val_main_v35_apply,
    val_main_cst_5_apply, val_main_cst_6_apply, frame_at, memory_at]
  generalize val_main_v2 (F := Ideal) x0 = Q
  generalize val_main_v3 (F := Ideal) x0 = R
  generalize val_main_v16 (F := Ideal) x1 = V
  generalize val_main_v18 (F := Ideal) x2 = K
  generalize val_main_v31 (F := Ideal) x3 = W
  rfl

theorem result_eq (x0 : (⟨S8x8x32x32x256, .f32⟩ : BufTy).Contents (Elt Ideal)) (x1 : (⟨S8x8x32x32x3, .f32⟩ : BufTy).Contents (Elt Ideal))
    (x2 : (⟨S8x8x512x256, .f32⟩ : BufTy).Contents (Elt Ideal)) (x3 : (⟨S8x8x512x3, .f32⟩ : BufTy).Contents (Elt Ideal)) :
    val_main_v37 (F := Ideal) x0 x1 x2 x3
      = whole (val_main_v2 (F := Ideal) x0) (val_main_v3 (F := Ideal) x0) (val_main_v16 (F := Ideal) x1)
          (val_main_v18 (F := Ideal) x2) (val_main_v31 (F := Ideal) x3) := by
  funext i
  obtain ⟨b, t, p, c, rfl⟩ : ∃ (b : Fin 8) (t : Fin 7) (p : Fin 1024) (c : Fin 3), i = ix4 b t p c := ⟨i 0, i 1, i 2, i 3, eq_ix4 i⟩
  exact result_at x0 x1 x2 x3 b t p c

end Cert.Attention.Reference
end
-- ==== Proof.Slabs.lean ====
/-
  The kernel's side of the bridge, up to the body's arithmetic: where each block comes from and where it goes.

  The program first reshapes the two frame arrays to [8, 8, 1024, ·] and slices five arrays out of the arguments:
  the later frames' rows (frames 1…7), the earlier frames' rows and values (frames 0…6), and the memory's keys and
  values (steps 0…6). The region runs over the grid of 8 batch entries by 7 frame pairs; at the point of batch
  entry b and frame pair f every window's block is the slab (b, f, ·, ·) of its array, whole in the last two axes.
  So a block's entry (0, 0, p, j) is the array's entry (b, f, p, j); the 56 output blocks are disjoint slabs that
  together fill the result array, each index (b, f, p, c) lying in the block of the one point (b, f). After the
  region the program slices frames 1…7 of the second argument as its second result; that operation reads an
  argument, which the region leaves as launched.
-/
import proofs.«101743_j90787018703342_1_alg».proof.Proof.Gen.KernelIdeal.Frame
import Idealize.ShloMosaic.Lib.Pipeline.Value
import Idealize.ShloMosaic.Lib.ValueIdx
import Idealize.ShloMosaic.Lib.StableHlo.Run

noncomputable section

namespace Cert.Attention.Slabs

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The five sliced arrays, as the region finds them -/

/-- The later frames' rows: frames 1…7 of the first argument with each frame's 32 × 32 tokens in one axis. -/
abbrev laterRows (c : Dev nD) : S8x7x1024x256.Idx → EReal :=
  extractStridedSlice S8x7x1024x256 ![0, 1, 0, 0]
    (shapeCast S8x8x1024x256 (m ((c : Thread nD τ).loc main_arg0)) shapeCasts_S8x8x32x32x256_S8x8x1024x256)
    slices_S8x8x1024x256_S8x7x1024x256_0_1_0_0

/-- The earlier frames' rows: frames 0…6 of the same. -/
abbrev earlierRows (c : Dev nD) : S8x7x1024x256.Idx → EReal :=
  extractStridedSlice S8x7x1024x256 ![0, 0, 0, 0]
    (shapeCast S8x8x1024x256 (m ((c : Thread nD τ).loc main_arg0)) shapeCasts_S8x8x32x32x256_S8x8x1024x256)
    slices_S8x8x1024x256_S8x7x1024x256_0_0_0_0

/-- The earlier frames' values: frames 0…6 of the second argument, tokens in one axis. -/
abbrev earlierValues (c : Dev nD) : S8x7x1024x3.Idx → EReal :=
  extractStridedSlice S8x7x1024x3 ![0, 0, 0, 0]
    (shapeCast S8x8x1024x3 (m ((c : Thread nD τ).loc main_arg1)) shapeCasts_S8x8x32x32x3_S8x8x1024x3)
    slices_S8x8x1024x3_S8x7x1024x3_0_0_0_0

/-- The memory's keys at steps 0…6. -/
abbrev memoryKeys (c : Dev nD) : S8x7x512x256.Idx → EReal :=
  extractStridedSlice S8x7x512x256 ![0, 0, 0, 0] (m ((c : Thread nD τ).loc main_arg2)) slices_S8x8x512x256_S8x7x512x256_0_0_0_0

/-- The memory's values at steps 0…6. -/
abbrev memoryValues (c : Dev nD) : S8x7x512x3.Idx → EReal :=
  extractStridedSlice S8x7x512x3 ![0, 0, 0, 0] (m ((c : Thread nD τ).loc main_arg3)) slices_S8x8x512x3_S8x7x512x3_0_0_0_0

/-- The later frames' values: frames 1…7 of the second argument, as launched. -/
abbrev laterValues (c : Dev nD) : S8x7x32x32x3.Idx → EReal :=
  extractStridedSlice S8x7x32x32x3 ![0, 1, 0, 0, 0] (m ((c : Thread nD τ).loc main_arg1)) slices_S8x8x32x32x3_S8x7x32x32x3_0_1_0_0_0

theorem V_laterRows (c : Dev nD) : (V m c main_v2 : S8x7x1024x256.Idx → EReal) = laterRows m c := by
  show StableHlo.after hostOps0 (fun b => m (c, b)) (Proc.devRef .tc main_v2) = _
  after_results
  rfl

theorem V_earlierRows (c : Dev nD) : (V m c main_v3 : S8x7x1024x256.Idx → EReal) = earlierRows m c := by
  show StableHlo.after hostOps0 (fun b => m (c, b)) (Proc.devRef .tc main_v3) = _
  after_results
  rfl

theorem V_earlierValues (c : Dev nD) : (V m c main_v4 : S8x7x1024x3.Idx → EReal) = earlierValues m c := by
  show StableHlo.after hostOps0 (fun b => m (c, b)) (Proc.devRef .tc main_v4) = _
  after_results
  rfl

theorem V_memoryKeys (c : Dev nD) : (V m c main_v5 : S8x7x512x256.Idx → EReal) = memoryKeys m c := by
  show StableHlo.after hostOps0 (fun b => m (c, b)) (Proc.devRef .tc main_v5) = _
  after_results

theorem V_memoryValues (c : Dev nD) : (V m c main_v6 : S8x7x512x3.Idx → EReal) = memoryValues m c := by
  show StableHlo.after hostOps0 (fun b => m (c, b)) (Proc.devRef .tc main_v6) = _
  after_results

/-! ## The grid: every window's block index at a point is (b, f, 0, 0) -/

/-- The output window's block index at a point: a batch entry below 8, a frame pair below 7, and 0 on the two
    whole axes (decided over the 56 points). -/
theorem idx_out : ∀ t : Fin cfg0.N, win0_5.index t (0 : Fin 4) < 8 ∧ win0_5.index t (1 : Fin 4) < 7
    ∧ win0_5.index t (2 : Fin 4) = 0 ∧ win0_5.index t (3 : Fin 4) = 0 :=
  (by decide +kernel : ∀ t : Fin grid0.N, _)

/-- Each input window moves with the output window. -/
theorem idx_in0 : ∀ t : Fin cfg0.N, win0_0.index t (0 : Fin 4) = win0_5.index t (0 : Fin 4)
    ∧ win0_0.index t (1 : Fin 4) = win0_5.index t (1 : Fin 4) ∧ win0_0.index t (2 : Fin 4) = 0 ∧ win0_0.index t (3 : Fin 4) = 0 :=
  (by decide +kernel : ∀ t : Fin grid0.N, _)
theorem idx_in1 : ∀ t : Fin cfg0.N, win0_1.index t (0 : Fin 4) = win0_5.index t (0 : Fin 4)
    ∧ win0_1.index t (1 : Fin 4) = win0_5.index t (1 : Fin 4) ∧ win0_1.index t (2 : Fin 4) = 0 ∧ win0_1.index t (3 : Fin 4) = 0 :=
  (by decide +kernel : ∀ t : Fin grid0.N, _)
theorem idx_in2 : ∀ t : Fin cfg0.N, win0_2.index t (0 : Fin 4) = win0_5.index t (0 : Fin 4)
    ∧ win0_2.index t (1 : Fin 4) = win0_5.index t (1 : Fin 4) ∧ win0_2.index t (2 : Fin 4) = 0 ∧ win0_2.index t (3 : Fin 4) = 0 :=
  (by decide +kernel : ∀ t : Fin grid0.N, _)
theorem idx_in3 : ∀ t : Fin cfg0.N, win0_3.index t (0 : Fin 4) = win0_5.index t (0 : Fin 4)
    ∧ win0_3.index t (1 : Fin 4) = win0_5.index t (1 : Fin 4) ∧ win0_3.index t (2 : Fin 4) = 0 ∧ win0_3.index t (3 : Fin 4) = 0 :=
  (by decide +kernel : ∀ t : Fin grid0.N, _)
theorem idx_in4 : ∀ t : Fin cfg0.N, win0_4.index t (0 : Fin 4) = win0_5.index t (0 : Fin 4)
    ∧ win0_4.index t (1 : Fin 4) = win0_5.index t (1 : Fin 4) ∧ win0_4.index t (2 : Fin 4) = 0 ∧ win0_4.index t (3 : Fin 4) = 0 :=
  (by decide +kernel : ∀ t : Fin grid0.N, _)

/-- Every pair (batch entry, frame pair) is some point's. -/
theorem idx_onto : ∀ (b : Fin 8) (f : Fin 7), ∃ t : Fin cfg0.N, win0_5.index t = ![b.val, f.val, 0, 0] :=
  (by decide +kernel : ∀ (b : Fin 8) (f : Fin 7), ∃ t : Fin grid0.N, win0_5.index t = ![b.val, f.val, 0, 0])

/-! ## A block is a slab of its array -/

/-- The later-rows block at the point of (b, f): its entry (0, 0, p, j) is the array's (b, f, p, j). -/
theorem blk_laterRows (c : Dev nD) (t : Fin cfg0.N) (b : Fin 8) (f : Fin 7)
    (hb : win0_5.index t (0 : Fin 4) = b.val) (hf : win0_5.index t (1 : Fin 4) = f.val) (p : Fin 1024) (j : Fin 256) :
    (iblk m c 0 t : Vec Ideal S1x1x1024x256 .f32) (ix4 (0 : Fin 1) (0 : Fin 1) p j)
      = (V m c main_v2 : S8x7x1024x256.Idx → EReal) (ix4 b f p j) := by
  obtain ⟨e0, e1, e2, e3⟩ := idx_in0 t
  unfold iblk
  rw [View.read_apply]
  show V m c main_v2 _ = V m c main_v2 _
  congr 1
  funext a
  apply Fin.ext
  match a with
  | ⟨0, _⟩ => show win0_0.index t (0 : Fin 4) * 1 + 1 * 0 = b.val; omega
  | ⟨1, _⟩ => show win0_0.index t (1 : Fin 4) * 1 + 1 * 0 = f.val; omega
  | ⟨2, _⟩ => show win0_0.index t (2 : Fin 4) * 1024 + 1 * p.val = p.val; omega
  | ⟨3, _⟩ => show win0_0.index t (3 : Fin 4) * 256 + 1 * j.val = j.val; omega

/-- The earlier-rows block likewise. -/
theorem blk_earlierRows (c : Dev nD) (t : Fin cfg0.N) (b : Fin 8) (f : Fin 7)
    (hb : win0_5.index t (0 : Fin 4) = b.val) (hf : win0_5.index t (1 : Fin 4) = f.val) (p : Fin 1024) (j : Fin 256) :
    (iblk m c 1 t : Vec Ideal S1x1x1024x256 .f32) (ix4 (0 : Fin 1) (0 : Fin 1) p j)
      = (V m c main_v3 : S8x7x1024x256.Idx → EReal) (ix4 b f p j) := by
  obtain ⟨e0, e1, e2, e3⟩ := idx_in1 t
  unfold iblk
  rw [View.read_apply]
  show V m c main_v3 _ = V m c main_v3 _
  congr 1
  funext a
  apply Fin.ext
  match a with
  | ⟨0, _⟩ => show win0_1.index t (0 : Fin 4) * 1 + 1 * 0 = b.val; omega
  | ⟨1, _⟩ => show win0_1.index t (1 : Fin 4) * 1 + 1 * 0 = f.val; omega
  | ⟨2, _⟩ => show win0_1.index t (2 : Fin 4) * 1024 + 1 * p.val = p.val; omega
  | ⟨3, _⟩ => show win0_1.index t (3 : Fin 4) * 256 + 1 * j.val = j.val; omega

/-- The earlier-values block likewise. -/
theorem blk_earlierValues (c : Dev nD) (t : Fin cfg0.N) (b : Fin 8) (f : Fin 7)
    (hb : win0_5.index t (0 : Fin 4) = b.val) (hf : win0_5.index t (1 : Fin 4) = f.val) (p : Fin 1024) (j : Fin 3) :
    (iblk m c 2 t : Vec Ideal S1x1x1024x3 .f32) (ix4 (0 : Fin 1) (0 : Fin 1) p j)
      = (V m c main_v4 : S8x7x1024x3.Idx → EReal) (ix4 b f p j) := by
  obtain ⟨e0, e1, e2, e3⟩ := idx_in2 t
  unfold iblk
  rw [View.read_apply]
  show V m c main_v4 _ = V m c main_v4 _
  congr 1
  funext a
  apply Fin.ext
  match a with
  | ⟨0, _⟩ => show win0_2.index t (0 : Fin 4) * 1 + 1 * 0 = b.val; omega
  | ⟨1, _⟩ => show win0_2.index t (1 : Fin 4) * 1 + 1 * 0 = f.val; omega
  | ⟨2, _⟩ => show win0_2.index t (2 : Fin 4) * 1024 + 1 * p.val = p.val; omega
  | ⟨3, _⟩ => show win0_2.index t (3 : Fin 4) * 3 + 1 * j.val = j.val; omega

/-- The memory-keys block likewise. -/
theorem blk_memoryKeys (c : Dev nD) (t : Fin cfg0.N) (b : Fin 8) (f : Fin 7)
    (hb : win0_5.index t (0 : Fin 4) = b.val) (hf : win0_5.index t (1 : Fin 4) = f.val) (p : Fin 512) (j : Fin 256) :
    (iblk m c 3 t : Vec Ideal S1x1x512x256 .f32) (ix4 (0 : Fin 1) (0 : Fin 1) p j)
      = (V m c main_v5 : S8x7x512x256.Idx → EReal) (ix4 b f p j) := by
  obtain ⟨e0, e1, e2, e3⟩ := idx_in3 t
  unfold iblk
  rw [View.read_apply]
  show V m c main_v5 _ = V m c main_v5 _
  congr 1
  funext a
  apply Fin.ext
  match a with
  | ⟨0, _⟩ => show win0_3.index t (0 : Fin 4) * 1 + 1 * 0 = b.val; omega
  | ⟨1, _⟩ => show win0_3.index t (1 : Fin 4) * 1 + 1 * 0 = f.val; omega
  | ⟨2, _⟩ => show win0_3.index t (2 : Fin 4) * 512 + 1 * p.val = p.val; omega
  | ⟨3, _⟩ => show win0_3.index t (3 : Fin 4) * 256 + 1 * j.val = j.val; omega

/-- The memory-values block likewise. -/
theorem blk_memoryValues (c : Dev nD) (t : Fin cfg0.N) (b : Fin 8) (f : Fin 7)
    (hb : win0_5.index t (0 : Fin 4) = b.val) (hf : win0_5.index t (1 : Fin 4) = f.val) (p : Fin 512) (j : Fin 3) :
    (iblk m c 4 t : Vec Ideal S1x1x512x3 .f32) (ix4 (0 : Fin 1) (0 : Fin 1) p j)
      = (V m c main_v6 : S8x7x512x3.Idx → EReal) (ix4 b f p j) := by
  obtain ⟨e0, e1, e2, e3⟩ := idx_in4 t
  unfold iblk
  rw [View.read_apply]
  show V m c main_v6 _ = V m c main_v6 _
  congr 1
  funext a
  apply Fin.ext
  match a with
  | ⟨0, _⟩ => show win0_4.index t (0 : Fin 4) * 1 + 1 * 0 = b.val; omega
  | ⟨1, _⟩ => show win0_4.index t (1 : Fin 4) * 1 + 1 * 0 = f.val; omega
  | ⟨2, _⟩ => show win0_4.index t (2 : Fin 4) * 512 + 1 * p.val = p.val; omega
  | ⟨3, _⟩ => show win0_4.index t (3 : Fin 4) * 3 + 1 * j.val = j.val; omega

/-- The output block's entry (0, 0, p, c) at the point of (b, f) sits at the array's index (b, f, p, c). -/
theorem emb_out (t : Fin cfg0.N) (b : Fin 8) (f : Fin 7)
    (hb : win0_5.index t (0 : Fin 4) = b.val) (hf : win0_5.index t (1 : Fin 4) = f.val) (p : Fin 1024) (j : Fin 3) :
    ((cfg0.win 5).blk t).view.emb (ix4 (0 : Fin 1) (0 : Fin 1) p j) = (ix4 b f p j : S8x7x1024x3.Idx) := by
  obtain ⟨-, -, e2, e3⟩ := idx_out t
  funext a
  apply Fin.ext
  match a with
  | ⟨0, _⟩ => show win0_5.index t (0 : Fin 4) * 1 + 1 * 0 = b.val; omega
  | ⟨1, _⟩ => show win0_5.index t (1 : Fin 4) * 1 + 1 * 0 = f.val; omega
  | ⟨2, _⟩ => show win0_5.index t (2 : Fin 4) * 1024 + 1 * p.val = p.val; omega
  | ⟨3, _⟩ => show win0_5.index t (3 : Fin 4) * 3 + 1 * j.val = j.val; omega

/-! ## The output blocks fill the result array -/

/-- An index of the result array is in the point's output block iff each coordinate is in the block's range. -/
theorem mem_out (t : Fin cfg0.N) (i : S8x7x1024x3.Idx) :
    i ∈ ((cfg0.win 5).blk t).view.set ↔ ∀ a : Fin 4, win0_5.index t a * S1x1x1024x3.size a ≤ (i a).val
      ∧ (i a).val < win0_5.index t a * S1x1x1024x3.size a + S1x1x1024x3.size a := by
  show i ∈ ((View.whole main_v7).slice (win0_5.rect t)).set ↔ _
  rw [View.set_slice_whole, Rect.mem_set_unit]
  exact Iff.rfl

/-- Every index (b, f, p, c) of the result array lies in the output block of the point of (b, f), and every point
    writes its block back. -/
theorem cover_out (i : S8x7x1024x3.Idx) :
    ∃ t : Fin cfg0.N, (cfg0.win 5).flush t = true ∧ i ∈ ((cfg0.win 5).blk t).view.set := by
  have h0 : (i 0).val < 8 := (i 0).isLt
  have h1 : (i 1).val < 7 := (i 1).isLt
  have h2 : (i 2).val < 1024 := (i 2).isLt
  have h3 : (i 3).val < 3 := (i 3).isLt
  obtain ⟨t, ht⟩ := idx_onto ⟨(i 0).val, h0⟩ ⟨(i 1).val, h1⟩
  have q0 : win0_5.index t (0 : Fin 4) = (i 0).val := congrFun ht 0
  have q1 : win0_5.index t (1 : Fin 4) = (i 1).val := congrFun ht 1
  have q2 : win0_5.index t (2 : Fin 4) = 0 := congrFun ht 2
  have q3 : win0_5.index t (3 : Fin 4) = 0 := congrFun ht 3
  refine ⟨t, flush0_5 t, ?_⟩
  rw [mem_out]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 3 ≤ (i 3).val ∧ (i 3).val < win0_5.index t (3 : Fin 4) * 3 + 3; omega

/-! ## After the region -/

/-- The second result: the slice of frames 1…7 of the second argument, which the region left as launched. -/
theorem tail_later_values (c : Dev nD) :
    Pipeline.afterTail₀ cfgs (dats m) 0 (V0 m) [hostOps1] c main_v8 = laterValues m c := by
  unfold Pipeline.afterTail₀
  show StableHlo.after hostOps1 _ (Proc.devRef .tc main_v8) = _
  after_results
  rw [Pipeline.withArrays_of_ne _ c (V0 m c) _ main_arg1 (by exact (by decide : ∀ w, Pipeline.arrRef spec0 w ≠ main_arg1))]
  exact congrArg (fun x => extractStridedSlice S8x7x32x32x3 ![0, 1, 0, 0, 0] x slices_S8x8x32x32x3_S8x7x32x32x3_0_1_0_0_0) (V_main_arg1 m c)

/-- What the frame run's post says of the two results and the four arguments: the first result is the output
    window's array after the last point, the second the slice above, the arguments as launched. -/
theorem post_read (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v7) = (dats m 0 c).arrAt 5 cfg0.N
    ∧ r.2.mem ((c.tc : Thread nD τ).loc main_v8) = laterValues m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c).1 5,
   ((h c).2 main_v8 (Pipeline.mem_restRefs_of main_v8 (by decide) (by decide))).trans (tail_later_values m c),
   ((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c)⟩

end Cert.Attention.Slabs

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.BodyValue.lean ====
/-
  What the kernel body stores for one grid point, read at one token and one channel.

  The body views its five loaded blocks as matrices, forms the logits of every query row against the key rows of the
  earlier frame and against the memory keys (inner products over the 256 features), turns each row of logits into
  softmax weights (subtract the row's maximum, exponentiate, divide by the row's sum), multiplies the weights into the
  value rows, and adds 0.8 times the frame result to 0.2 times the memory result. On the extended reals the format
  changes keep every value and the products into a zero accumulator are plain sums, so at token `p` and channel `c`
  the stored number is the specification's `cell` of the five blocks. The steps below read each operation at an
  index: the views across unit axes, the two kinds of product, one row's softmax at any row length, then the body's
  values in the order it computes them.
-/
import proofs.«101743_j90787018703342_1_alg».proof.Proof.Gen.KernelIdeal.Frame
import proofs.«101743_j90787018703342_1_alg».proof.Proof.Attention
import proofs.«101743_j90787018703342_1_alg».proof.Proof.LibMatmul
import proofs.«101743_j90787018703342_1_alg».proof.Proof.LibUnitAxis

noncomputable section
open scoped BigOperators
namespace Cert.Attention.Body
open Cert.KernelIdeal Cert.KernelIdeal.Gen Idealize.ShloMosaic Idealize.ShloMosaic.ValueIdx

/-! ## Views across two leading unit axes

A block `[1, 1, a, b]` and the matrix `[a, b]` hold the same elements at the same row-major positions: the two unit
axes contribute nothing to a position. -/

section Layout
variable {α : Type}

/-- A block `[1, 1, a, b]` viewed as the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix `[a, b]` viewed as the block `[1, 1, a, b]` reads, at `(u, w, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

end Layout

/-! ## A product against a transposed right operand, read at an index

For dimension numbers that contract the left operand's second axis with the right operand's SECOND axis (rows of the
left against rows of the right), the contraction's sum at output index `(p, κ)` is `∑ j, L[p, j] · R[κ, j]`. -/

section RowsAgainstRows
variable {M K N : ℕ} (D : DotDims ⟨2, ![M, K]⟩ ⟨2, ![N, K]⟩ ⟨2, ![M, N]⟩)

/-- The contraction's sum over the textbook index, for any dimension numbers whose one contracted axis is axis 1 on
    both sides and whose free coordinates are the output's row (left) and the output's column (right). -/
theorem rows_sum {α : Type} [AddCommMonoid α] [Mul α]
    (hl : D.lhsContracting = [1]) (hr : D.rhsContracting = [1])
    (hrank : D.contr.rank = 1) (hsize : D.contr.size ⟨0, by rw [hrank]; exact Nat.one_pos⟩ = K)
    (h0l : ∀ (j : (⟨2, ![M, N]⟩ : Shape).Idx) k, (D.lhsIdx j k 0).val = (j 0).val)
    (h0r : ∀ (j : (⟨2, ![M, N]⟩ : Shape).Idx) k, (D.rhsIdx j k 0).val = (j 1).val)
    (L : (⟨2, ![M, K]⟩ : Shape).Idx → α) (R : (⟨2, ![N, K]⟩ : Shape).Idx → α) (p : Fin M) (κ : Fin N) :
    ∑ k : D.contr.Idx, L (D.lhsIdx (ix2 p κ) k) * R (D.rhsIdx (ix2 p κ) k) = ∑ j : Fin K, L (ix2 p j) * R (ix2 κ j) := by
  rw [← Equiv.sum_comp (contrEquiv1 D K hrank hsize).symm]
  refine Finset.sum_congr rfl fun j _ => ?_
  have el : D.lhsIdx (ix2 p κ) ((contrEquiv1 D K hrank hsize).symm j) = ix2 p j := by
    funext a
    refine Fin.ext ?_
    match a with
    | ⟨0, _⟩ => exact h0l (ix2 p κ) _
    | ⟨1, _⟩ =>
      refine (D.lhsIdx_val_of_single (cl := 1) hl (ix2 p κ) _).trans ?_
      exact contrEquiv1_symm_val D K hrank hsize j
  have er : D.rhsIdx (ix2 p κ) ((contrEquiv1 D K hrank hsize).symm j) = ix2 κ j := by
    funext a
    refine Fin.ext ?_
    match a with
    | ⟨0, _⟩ => exact h0r (ix2 p κ) _
    | ⟨1, _⟩ =>
      refine (D.rhsIdx_val_of_single (cr := 1) hr (ix2 p κ) _).trans ?_
      exact contrEquiv1_symm_val D K hrank hsize j
  rw [el, er]

end RowsAgainstRows

/-- The query block against the key block, into the zero accumulator: at `(p, κ)` the inner product of query row
    `p` and key row `κ`. -/
theorem logits_frame_apply {φ₁ φ₂ : FTy} (prec : Option ContractPrecision)
    (Q : FVec Ideal S1024x256 φ₁) (R : FVec Ideal S1024x256 φ₂) (p : Fin 1024) (κ : Fin 1024) :
    FloatOps.matmul dot_S1024x256_S1024x256_S1024x1024_1_1_0_0_n_n prec Q R (constant S1024x1024 .f32 0x00000000#32) (ix2 p κ)
      = ∑ j : Fin 256, Q (ix2 p j) * R (ix2 κ j) :=
  (Ideal.matmul_constant_zero_apply _ prec Q R (ix2 p κ)).trans
    (rows_sum dot_S1024x256_S1024x256_S1024x1024_1_1_0_0_n_n rfl rfl rfl rfl (fun _ _ => rfl) (fun _ _ => rfl) Q R p κ)

/-- The query block against the memory keys, likewise: at `(p, μ)` the inner product of query row `p` and memory
    key row `μ`. -/
theorem logits_memory_apply {φ₁ φ₂ : FTy} (prec : Option ContractPrecision)
    (Q : FVec Ideal S1024x256 φ₁) (R : FVec Ideal S512x256 φ₂) (p : Fin 1024) (μ : Fin 512) :
    FloatOps.matmul dot_S1024x256_S512x256_S1024x512_1_1_0_0_n_n prec Q R (constant S1024x512 .f32 0x00000000#32) (ix2 p μ)
      = ∑ j : Fin 256, Q (ix2 p j) * R (ix2 μ j) :=
  (Ideal.matmul_constant_zero_apply _ prec Q R (ix2 p μ)).trans
    (rows_sum dot_S1024x256_S512x256_S1024x512_1_1_0_0_n_n rfl rfl rfl rfl (fun _ _ => rfl) (fun _ _ => rfl) Q R p μ)

/-- The frame weights against the frame values: a plain product, `∑ κ, W[p, κ] · V[κ, c]`. -/
theorem mix_frame_apply {φ₁ φ₂ : FTy} (prec : Option ContractPrecision)
    (W : FVec Ideal S1024x1024 φ₁) (V : FVec Ideal S1024x3 φ₂) (p : Fin 1024) (c : Fin 3) :
    FloatOps.matmul dot_S1024x1024_S1024x3_S1024x3_1_0_0_1_n_n prec W V (constant S1024x3 .f32 0x00000000#32) (ix2 p c)
      = ∑ κ : Fin 1024, W (ix2 p κ) * V (ix2 κ c) :=
  Cert.Bridge.LibMatmul.matmul_zero_apply (M := 1024) (K := 1024) (N := 3) prec W V p c

/-- The memory weights against the memory values: `∑ μ, W[p, μ] · V[μ, c]`. -/
theorem mix_memory_apply {φ₁ φ₂ : FTy} (prec : Option ContractPrecision)
    (W : FVec Ideal S1024x512 φ₁) (V : FVec Ideal S512x3 φ₂) (p : Fin 1024) (c : Fin 3) :
    FloatOps.matmul dot_S1024x512_S512x3_S1024x3_1_0_0_1_n_n prec W V (constant S1024x3 .f32 0x00000000#32) (ix2 p c)
      = ∑ μ : Fin 512, W (ix2 p μ) * V (ix2 μ c) :=
  Cert.Bridge.LibMatmul.matmul_zero_apply (M := 1024) (K := 512) (N := 3) prec W V p c

/-! ## One row's softmax weights

For a matrix of logits `L` with rows of any length `N`: the row maximum is the running maximum from the word of −∞;
the row sum adds the shifted exponentials from zero; a per-row statistic reaches its row through a column `[1024, 1]`
spread over the row's length. -/

section Softmax
variable {N : ℕ}

/-- Inserting column `κ` into the row index `p` gives the matrix index `(p, κ)`. -/
theorem lift_row (h : (⟨2, ![1024, N]⟩ : Shape).Reduces [1] S1024) (p : Fin 1024) (κ : Fin N) :
    h.lift (ix1 p) κ = ix2 p κ := by
  funext a
  refine Fin.ext ?_
  match a with
  | ⟨0, _⟩ => rfl
  | ⟨1, _⟩ => rfl

/-- A row's running maximum from the word of −∞, read at row `p`. -/
theorem rowMax_apply (L : FVec Ideal ⟨2, ![1024, N]⟩ .f32) (h : (⟨2, ![1024, N]⟩ : Shape).Reduces [1] S1024)
    (hφ : FKind.Formats .f32) (hacc : (0xFF800000#32 : BitVec 32) = FKind.maximumf.neutral .f32 hφ) (p : Fin 1024) :
    multiReduction (F := Ideal) .maximumf [1] S1024 L 0xFF800000#32 h hφ hacc (ix1 p)
      = (Finset.univ : Finset (Fin N)).fold max (Ideal.ofBits .f32 0xFF800000#32) (fun κ => L (ix2 p κ)) := by
  refine (Ideal.multiReduction_maximumf_single L 0xFF800000#32 h hφ hacc (ix1 p)).trans ?_
  show (Finset.univ : Finset (Fin N)).fold max (Ideal.ofBits .f32 0xFF800000#32) (fun κ => L (h.lift (ix1 p) κ)) = _
  exact congrArg (fun f => (Finset.univ : Finset (Fin N)).fold max (Ideal.ofBits .f32 0xFF800000#32) f)
    (funext fun κ => congrArg L (lift_row h p κ))

/-- A row's sum from zero, read at row `p`. -/
theorem rowSum_apply (E : FVec Ideal ⟨2, ![1024, N]⟩ .f32) (h : (⟨2, ![1024, N]⟩ : Shape).Reduces [1] S1024)
    (hφ : FKind.Formats .f32) (hacc : (0x00000000#32 : BitVec 32) = FKind.add.neutral .f32 hφ) (p : Fin 1024) :
    multiReduction (F := Ideal) .add [1] S1024 E 0x00000000#32 h hφ hacc (ix1 p) = ∑ κ : Fin N, E (ix2 p κ) := by
  refine (Ideal.multiReduction_add_single E 0x00000000#32 h hφ hacc (ix1 p)).trans ?_
  show ∑ κ : Fin N, E (h.lift (ix1 p) κ) = _
  exact Finset.sum_congr rfl fun κ _ => congrArg E (lift_row h p κ)

/-- A per-row statistic `v`, made a column and spread over the rows' length, reads `v p` everywhere on row `p`. -/
theorem spread_apply (v : FVec Ideal S1024 .f32) (hc : S1024.ShapeCasts S1024x1)
    (hb : S1024x1.Broadcasts ⟨2, ![1024, N]⟩) (p : Fin 1024) (κ : Fin N) :
    broadcastTo ⟨2, ![1024, N]⟩ (shapeCast S1024x1 v hc) hb (ix2 p κ) = v (ix1 p) :=
  (Cert.Lib.UnitAxis.broadcastTo_a1_ab_apply _ hb p κ).trans (Cert.Lib.UnitAxis.shapeCast_a_a1_apply v hc p 0)

/-- The exponential of a vector, read at an index. -/
theorem exp_apply {s : Shape} {φ : FTy} (a : FVec Ideal s φ) (i : s.Idx) : exp a i = Ideal.exp (a i) := rfl

/-- Narrowing a vector's format keeps every value. -/
theorem narrow_apply {s : Shape} (a : FVec Ideal s .f32) (h : FTy.bits .bf16 < FTy.bits .f32) (i : s.Idx) :
    truncf .bf16 a h i = a i := rfl

/-- A word carried as a scalar constant is the word's value. -/
theorem scalar_ofBits (φ : FTy) (b : BitVec φ.bits) : Scalar.ofBits (F := Ideal) φ b = Ideal.ofBits φ b := rfl

/-- The shifted exponentials of a matrix of logits `L`, given the vector `m` of its rows' running maxima: `m` is
    joined once more with −∞, made a column, spread over the rows, subtracted, and the exponential taken. -/
def shifted (L : FVec Ideal ⟨2, ![1024, N]⟩ .f32) (m : FVec Ideal S1024 .f32) (hc : S1024.ShapeCasts S1024x1)
    (hb : S1024x1.Broadcasts ⟨2, ![1024, N]⟩) : FVec Ideal ⟨2, ![1024, N]⟩ .f32 :=
  exp (subf L (broadcastTo ⟨2, ![1024, N]⟩
    (shapeCast S1024x1 (maximumf (broadcast S1024 (Scalar.ofBits (F := Ideal) .f32 0xFF800000#32)) m) hc) hb))

/-- At `(p, κ)` it is the specification's shifted exponential of row `p`, when `m p` is that row's running maximum. -/
theorem shifted_apply (L : FVec Ideal ⟨2, ![1024, N]⟩ .f32) (m : FVec Ideal S1024 .f32) (hc : S1024.ShapeCasts S1024x1)
    (hb : S1024x1.Broadcasts ⟨2, ![1024, N]⟩) (p : Fin 1024) (κ : Fin N)
    (hm : m (ix1 p) = (Finset.univ : Finset (Fin N)).fold max (Ideal.ofBits .f32 0xFF800000#32) (fun κ => L (ix2 p κ))) :
    shifted L m hc hb (ix2 p κ) = expShift (fun κ => L (ix2 p κ)) κ := by
  unfold shifted expShift rowMax
  rw [exp_apply, subf_apply, spread_apply, maximumf_apply, broadcast_apply, scalar_ofBits, hm]

/-- The weights: each shifted exponential over its row's sum of them (the sum taken from zero, made a column and spread
    over the row), then narrowed, which keeps the value. At `(p, κ)` this is the specification's weight of row `p`. -/
theorem weights_apply (L : FVec Ideal ⟨2, ![1024, N]⟩ .f32) (m : FVec Ideal S1024 .f32)
    (h : (⟨2, ![1024, N]⟩ : Shape).Reduces [1] S1024) (hφ : FKind.Formats .f32)
    (hacc : (0x00000000#32 : BitVec 32) = FKind.add.neutral .f32 hφ) (hc : S1024.ShapeCasts S1024x1)
    (hb : S1024x1.Broadcasts ⟨2, ![1024, N]⟩) (hlt : FTy.bits .bf16 < FTy.bits .f32) (p : Fin 1024) (κ : Fin N)
    (hm : m (ix1 p) = (Finset.univ : Finset (Fin N)).fold max (Ideal.ofBits .f32 0xFF800000#32) (fun κ => L (ix2 p κ))) :
    truncf .bf16 (divf (shifted L m hc hb) (broadcastTo ⟨2, ![1024, N]⟩
        (shapeCast S1024x1 (multiReduction (F := Ideal) .add [1] S1024 (shifted L m hc hb) 0x00000000#32 h hφ hacc) hc) hb))
      hlt (ix2 p κ) = weight (fun κ => L (ix2 p κ)) κ := by
  unfold weight
  rw [narrow_apply, divf_apply, spread_apply, rowSum_apply, shifted_apply L m hc hb p κ hm]
  refine congrArg (Ideal.div _) (Finset.sum_congr rfl fun κ' _ => ?_)
  exact shifted_apply L m hc hb p κ' hm

end Softmax

/-! ## The body's values at an index -/

/-- The query block as the matrix the products read: entry `(p, j)` of the block. -/
theorem pay2_apply (x0 : Vec Ideal S1x1x1024x256 .f32) (p : Fin 1024) (j : Fin 256) :
    k0_pay2 (F := Ideal) x0 (ix2 p j) = x0 (ix4 (0 : Fin 1) (0 : Fin 1) p j) := by
  unfold k0_pay2
  exact (narrow_apply _ _ _).trans (shapeCast_11ab_ab_apply x0 _ p j)

/-- The memory values as a matrix: entry `(μ, c)` of the block. -/
theorem pay3_apply (x4 : Vec Ideal S1x1x512x3 .f32) (μ : Fin 512) (c : Fin 3) :
    k0_pay3 (F := Ideal) x4 (ix2 μ c) = x4 (ix4 (0 : Fin 1) (0 : Fin 1) μ c) := by
  unfold k0_pay3
  exact (narrow_apply _ _ _).trans (shapeCast_11ab_ab_apply x4 _ μ c)

/-- The memory logits: at `(p, μ)` the inner product of query row `p` and memory key row `μ`. -/
theorem pay5_apply (x0 : Vec Ideal S1x1x1024x256 .f32) (x3 : Vec Ideal S1x1x512x256 .f32) (p : Fin 1024) (μ : Fin 512) :
    k0_pay5 (F := Ideal) x0 x3 (ix2 p μ)
      = logit (fun j => x0 (ix4 (0 : Fin 1) (0 : Fin 1) p j)) (fun j => x3 (ix4 (0 : Fin 1) (0 : Fin 1) μ j)) := by
  unfold k0_pay5 logit
  refine (logits_memory_apply none _ _ p μ).trans ?_
  refine Finset.sum_congr rfl fun j _ => ?_
  exact congrArg₂ (· * ·) (pay2_apply x0 p j) ((narrow_apply _ _ _).trans (shapeCast_11ab_ab_apply x3 _ μ j))

/-- The memory logits' running row maximum. -/
theorem pay6_apply (x0 : Vec Ideal S1x1x1024x256 .f32) (x3 : Vec Ideal S1x1x512x256 .f32) (p : Fin 1024) :
    k0_pay6 (F := Ideal) x0 x3 (ix1 p)
      = (Finset.univ : Finset (Fin 512)).fold max (Ideal.ofBits .f32 0xFF800000#32) (fun μ => k0_pay5 (F := Ideal) x0 x3 (ix2 p μ)) := by
  unfold k0_pay6
  exact rowMax_apply (N := 512) (k0_pay5 (F := Ideal) x0 x3) _ _ _ p

/-- The frame branch: at `(p, c)` the softmax-weighted sum of the frame values, the logits being the inner products
    of query row `p` with the key rows. -/
theorem pay4_apply (x0 x1 : Vec Ideal S1x1x1024x256 .f32) (x2 : Vec Ideal S1x1x1024x3 .f32) (p : Fin 1024) (c : Fin 3) :
    k0_pay4 (F := Ideal) x0 x1 x2 (ix2 p c)
      = attend (fun κ => logit (fun j => x0 (ix4 (0 : Fin 1) (0 : Fin 1) p j)) (fun j => x1 (ix4 (0 : Fin 1) (0 : Fin 1) κ j)))
          (fun κ => x2 (ix4 (0 : Fin 1) (0 : Fin 1) κ c)) := by
  unfold k0_pay4 attend
  refine (mix_frame_apply none _ _ p c).trans ?_
  refine Finset.sum_congr rfl fun κ _ => ?_
  refine congrArg₂ (· * ·) ?_ ((narrow_apply _ _ _).trans (shapeCast_11ab_ab_apply x2 _ κ c))
  refine (weights_apply (N := 1024) _ _ _ _ _ _ _ _ p κ (rowMax_apply (N := 1024) _ _ _ _ p)).trans ?_
  refine congrArg (fun f => weight f κ) (funext fun κ' => ?_)
  unfold logit
  refine (logits_frame_apply none _ _ p κ').trans ?_
  refine Finset.sum_congr rfl fun j _ => ?_
  exact congrArg₂ (· * ·) (pay2_apply x0 p j) ((narrow_apply _ _ _).trans (shapeCast_11ab_ab_apply x1 _ κ' j))

/-- The two coefficient words times the two branches, added and viewed as a block: the specification's blend. -/
theorem blend_apply (a b : FVec Ideal S1024x3 .f32) (hs : S1024x3.ShapeCasts S1x1x1024x3) (p : Fin 1024) (c : Fin 3) :
    shapeCast S1x1x1024x3
        (addf (mulf (broadcast S1024x3 (Scalar.ofBits (F := Ideal) .f32 0x3F4CCCCD#32)) a)
          (mulf (broadcast S1024x3 (Scalar.ofBits (F := Ideal) .f32 0x3E4CCCCD#32)) b)) hs
        (ix4 (0 : Fin 1) (0 : Fin 1) p c)
      = blend (a (ix2 p c)) (b (ix2 p c)) := by
  unfold blend
  rw [shapeCast_ab_11ab_apply, addf_apply, mulf_apply, mulf_apply, broadcast_apply, broadcast_apply, scalar_ofBits,
    scalar_ofBits]

/-- The stored block from the four values the earlier part hands over — the memory values `V`, the frame branch `A`,
    the memory logits `L` and their running row maxima `m`: the blend of `A` with the softmax-weighted sum of `V`. -/
theorem pay1_apply (V : FVec Ideal S512x3 .bf16) (A : FVec Ideal S1024x3 .f32) (L : FVec Ideal S1024x512 .f32)
    (m : FVec Ideal S1024 .f32) (p : Fin 1024) (c : Fin 3)
    (hm : m (ix1 p) = (Finset.univ : Finset (Fin 512)).fold max (Ideal.ofBits .f32 0xFF800000#32) (fun μ => L (ix2 p μ))) :
    k0_pay1 (F := Ideal) V A L m (ix4 (0 : Fin 1) (0 : Fin 1) p c)
      = blend (A (ix2 p c)) (attend (fun μ => L (ix2 p μ)) (fun μ => V (ix2 μ c))) := by
  unfold k0_pay1 attend
  refine (blend_apply A _ _ p c).trans ?_
  refine congrArg (blend _) ?_
  refine (mix_memory_apply none _ V p c).trans ?_
  refine Finset.sum_congr rfl fun μ _ => ?_
  exact congrArg (· * _) (weights_apply (N := 512) L m _ _ _ _ _ _ p μ hm)

/-- What the body stores at token `p` and channel `c`: the specification's cell of the five loaded blocks. -/
theorem out_at (x0 x1 : Vec Ideal S1x1x1024x256 .f32) (x2 : Vec Ideal S1x1x1024x3 .f32)
    (x3 : Vec Ideal S1x1x512x256 .f32) (x4 : Vec Ideal S1x1x512x3 .f32) (p : Fin 1024) (c : Fin 3) :
    out0_5 (F := Ideal) x0 x1 x2 x3 x4 (ix4 (0 : Fin 1) (0 : Fin 1) p c)
      = cell (fun p j => x0 (ix4 (0 : Fin 1) (0 : Fin 1) p j)) (fun κ j => x1 (ix4 (0 : Fin 1) (0 : Fin 1) κ j))
          (fun κ c => x2 (ix4 (0 : Fin 1) (0 : Fin 1) κ c)) (fun μ j => x3 (ix4 (0 : Fin 1) (0 : Fin 1) μ j))
          (fun μ c => x4 (ix4 (0 : Fin 1) (0 : Fin 1) μ c)) p c := by
  have hz : (![0, 0, 0, 0] : Fin 4 → Nat) = fun _ => 0 := funext fun a => by fin_cases a <;> rfl
  unfold out0_5 cell
  rw [View.canon_unit_zero hz]
  simp only [View.ld_unit_zero (S := S1x1x1024x256) hz, View.ld_unit_zero (S := S1x1x1024x3) hz,
    View.ld_unit_zero (S := S1x1x512x256) hz, View.ld_unit_zero (S := S1x1x512x3) hz]
  rw [pay1_apply _ _ _ _ p c (pay6_apply x0 x3 p), pay4_apply]
  refine congrArg (blend _) ?_
  exact congrArg₂ attend (funext fun μ => pay5_apply x0 x3 p μ) (funext fun μ => pay3_apply x4 μ c)

end Cert.Attention.Body
end
-- ==== Proof.KernelValue.lean ====
/-
  The kernel's first result as one function of the five sliced arrays.

  At the grid point of batch entry b and frame pair f the body stores the attention cell of its five blocks, and
  each block is the slab (b, f) of its array; the output block sits at the slab (b, f) of the result. So what the
  point writes back is its block of the whole result — the cell of the five arrays' slabs at every (b, f) — and,
  the 56 blocks filling the result array, the array ends holding the whole result. The program's second result
  is a slice of an argument the region never writes.
-/
import proofs.«101743_j90787018703342_1_alg».proof.Proof.Slabs
import proofs.«101743_j90787018703342_1_alg».proof.Proof.BodyValue
import proofs.«101743_j90787018703342_1_alg».proof.Proof.Attention

noncomputable section

namespace Cert.Attention.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.Attention Cert.Attention.Slabs

variable (m : (ℓ : Loc nD τ sig) → Buf (Elt Ideal) ℓ) (ρ : Dev nD → PrngReg)

/-- What a point writes back is its block of the whole result computed from the five sliced arrays: the body
    computes the cell of its five blocks, each block is the slab of its array at the point's batch entry and frame
    pair, and the output block sits at the same slab of the result. -/
theorem flushed_eq (c : Dev nD) (t : Fin cfg0.N) :
    (dats m 0 c).flushed 5 t = ((cfg0.win 5).blk t).view.read (Elt Ideal)
      (whole (V m c main_v2) (V m c main_v3) (V m c main_v4) (V m c main_v5) (V m c main_v6)) := by
  obtain ⟨hb, hf, -, -⟩ := idx_out t
  show (cfg0.win 5).cut (grid0.coords t) ((dats m 0 c).after 5 t) = _
  rw [after0_5]
  funext y
  have hy : (y : S1x1x1024x3.Idx) = ix4 (0 : Fin 1) (0 : Fin 1) (y 2) (y 3) := by
    funext a
    apply Fin.ext
    match a with
    | ⟨0, _⟩ => show (y 0).val = 0; have h : (y 0).val < 1 := (y 0).isLt; omega
    | ⟨1, _⟩ => show (y 1).val = 0; have h : (y 1).val < 1 := (y 1).isLt; omega
    | ⟨2, _⟩ => rfl
    | ⟨3, _⟩ => rfl
  obtain ⟨p, j, rfl⟩ : ∃ (p : Fin 1024) (j : Fin 3), y = ix4 (0 : Fin 1) (0 : Fin 1) p j := ⟨y 2, y 3, hy⟩
  rw [View.read_apply, emb_out t ⟨_, hb⟩ ⟨_, hf⟩ rfl rfl p j, whole_ix4]
  show out0_5 (iblk m c 0 t) (iblk m c 1 t) (iblk m c 2 t) (iblk m c 3 t) (iblk m c 4 t) (ix4 (0 : Fin 1) (0 : Fin 1) p j) = _
  refine (Body.out_at (iblk m c 0 t) (iblk m c 1 t) (iblk m c 2 t) (iblk m c 3 t) (iblk m c 4 t) p j).trans ?_
  have e0 : (fun (p : Fin 1024) (j : Fin 256) => (iblk m c 0 t : Vec Ideal S1x1x1024x256 .f32) (ix4 (0 : Fin 1) (0 : Fin 1) p j))
      = fun p j => (V m c main_v2 : S8x7x1024x256.Idx → EReal) (ix4 ⟨_, hb⟩ ⟨_, hf⟩ p j) :=
    funext fun p => funext fun j => blk_laterRows m c t ⟨_, hb⟩ ⟨_, hf⟩ rfl rfl p j
  have e1 : (fun (p : Fin 1024) (j : Fin 256) => (iblk m c 1 t : Vec Ideal S1x1x1024x256 .f32) (ix4 (0 : Fin 1) (0 : Fin 1) p j))
      = fun p j => (V m c main_v3 : S8x7x1024x256.Idx → EReal) (ix4 ⟨_, hb⟩ ⟨_, hf⟩ p j) :=
    funext fun p => funext fun j => blk_earlierRows m c t ⟨_, hb⟩ ⟨_, hf⟩ rfl rfl p j
  have e2 : (fun (p : Fin 1024) (j : Fin 3) => (iblk m c 2 t : Vec Ideal S1x1x1024x3 .f32) (ix4 (0 : Fin 1) (0 : Fin 1) p j))
      = fun p j => (V m c main_v4 : S8x7x1024x3.Idx → EReal) (ix4 ⟨_, hb⟩ ⟨_, hf⟩ p j) :=
    funext fun p => funext fun j => blk_earlierValues m c t ⟨_, hb⟩ ⟨_, hf⟩ rfl rfl p j
  have e3 : (fun (p : Fin 512) (j : Fin 256) => (iblk m c 3 t : Vec Ideal S1x1x512x256 .f32) (ix4 (0 : Fin 1) (0 : Fin 1) p j))
      = fun p j => (V m c main_v5 : S8x7x512x256.Idx → EReal) (ix4 ⟨_, hb⟩ ⟨_, hf⟩ p j) :=
    funext fun p => funext fun j => blk_memoryKeys m c t ⟨_, hb⟩ ⟨_, hf⟩ rfl rfl p j
  have e4 : (fun (p : Fin 512) (j : Fin 3) => (iblk m c 4 t : Vec Ideal S1x1x512x3 .f32) (ix4 (0 : Fin 1) (0 : Fin 1) p j))
      = fun p j => (V m c main_v6 : S8x7x512x3.Idx → EReal) (ix4 ⟨_, hb⟩ ⟨_, hf⟩ p j) :=
    funext fun p => funext fun j => blk_memoryValues m c t ⟨_, hb⟩ ⟨_, hf⟩ rfl rfl p j
  rw [e0, e1, e2, e3, e4]
  rfl

/-- The result array after the last point: the whole result of the five sliced arrays, the 56 blocks filling it. -/
theorem final_out (c : Dev nD) : (dats m 0 c).arrAt 5 cfg0.N
    = whole (laterRows m c) (earlierRows m c) (earlierValues m c) (memoryKeys m c) (memoryValues m c) := by
  rw [← V_laterRows m c, ← V_earlierRows m c, ← V_earlierValues m c, ← V_memoryKeys m c, ← V_memoryValues m c]
  exact (dats m 0 c).arrAt_eq_of_cover 5 _ (fun t _ => flushed_eq m c t) cover_out

/-- The kernel's run, read: the first result at the whole result of the five sliced arrays, the second at the
    later frames' values, the arguments as launched. -/
theorem run : θ_run defs (onTc (τ := τ) (main (F := Ideal))) ⟨m, fun _ => 0, ρ⟩ fun r => ∀ c : Dev nD,
      r.2.mem ((c.tc : Thread nD τ).loc main_v7)
        = whole (laterRows m c) (earlierRows m c) (earlierValues m c) (memoryKeys m c) (memoryValues m c)
      ∧ r.2.mem ((c.tc : Thread nD τ).loc main_v8) = laterValues m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
      obtain ⟨h7, h8, k0, k1, k2, k3⟩ := post_read m r h c
      exact ⟨h7.trans (final_out m c), h8, k0, k1, k2, k3⟩)
    (run_main m ρ)

end Cert.Attention.KernelValue

end
-- ==== Proof.lean ====
/-
  Attention of each frame's tokens over the previous frame's tokens and over a memory: the kernel against its
  reference, on the extended reals.

  Both programs slice the same five arrays out of the arguments — the later frames' rows, the earlier frames' rows
  and values, the memory's keys and values — and both compute, for every batch entry, frame pair, token p and
  channel c, the same number: with logits the inner products of the token's row against the key rows, and weights
  the row's softmax (subtract the row's maximum, exponentiate, divide by the row's sum), 0.8 times the weighted
  sum of the earlier frame's values plus 0.2 times the weighted sum of the memory's values. The kernel does it one
  (batch entry, frame pair) block at a time with matrix products into a zero accumulator and lane reductions; the
  reference does it for the whole arrays with batched contractions and reductions over the last axis. On the
  extended reals a product into zero is the plain sum, a change of format keeps the value, the two exponentials and
  the two quotients are one function each, and a row's maximum or sum does not depend on how the row is traversed;
  the words of −∞, 0.8 and 0.2 are the same on both sides. So the two results agree index by index, and no
  finiteness of the inputs is used. The second result of both programs is the same slice of the second argument.

  The modules: Attention (the specification), ReferenceValue (the reference's chain of operations is the
  specification), BodyValue (the kernel body's stored block is the specification's cell of its blocks), Slabs
  (blocks are slabs; the output blocks fill the result; the operation after the region), KernelValue (the kernel's
  run, read), and the claims below.
-/
import proofs.«101743_j90787018703342_1_alg».proof.Defs
import proofs.«101743_j90787018703342_1_alg».proof.Proof.Gen.Kernel
import proofs.«101743_j90787018703342_1_alg».proof.Proof.Gen.Kernel.Skeleton
import proofs.«101743_j90787018703342_1_alg».proof.Proof.Gen.Kernel.Launch
import proofs.«101743_j90787018703342_1_alg».proof.Proof.Gen.Kernel.Points
import proofs.«101743_j90787018703342_1_alg».proof.Proof.Gen.Kernel.Frame
import proofs.«101743_j90787018703342_1_alg».proof.Proof.Gen.KernelIdeal
import proofs.«101743_j90787018703342_1_alg».proof.Proof.Gen.KernelIdeal.Skeleton
import proofs.«101743_j90787018703342_1_alg».proof.Proof.Gen.KernelIdeal.Launch
import proofs.«101743_j90787018703342_1_alg».proof.Proof.Gen.KernelIdeal.Points
import proofs.«101743_j90787018703342_1_alg».proof.Proof.Gen.KernelIdeal.Frame
import proofs.«101743_j90787018703342_1_alg».proof.Proof.Gen.ReferenceIdeal
import proofs.«101743_j90787018703342_1_alg».proof.Proof.Gen.ReferenceIdeal.Run
import proofs.«101743_j90787018703342_1_alg».proof.Proof.Gen.ReferenceIdeal.Read
import proofs.«101743_j90787018703342_1_alg».proof.Proof.Gen.Pre_finite_inputs
import proofs.«101743_j90787018703342_1_alg».proof.Proof.Attention
import proofs.«101743_j90787018703342_1_alg».proof.Proof.ReferenceValue
import proofs.«101743_j90787018703342_1_alg».proof.Proof.KernelValue
import Idealize.ShloMosaic.Adequacy
import Idealize.ShloMosaic.Init

noncomputable section

namespace Cert.Proof.AttentionClaims

open Idealize.ShloMosaic Idealize.SL.Sem
open Cert.Attention

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to preserve. -/
theorem preserves : Cert.preserves_Kernel_KernelIdeal := trivial

/-- On the extended reals both programs end with the same two results. The first: the kernel's 56 blocks fill the
    result array with the attention cell of the five sliced arrays at each (batch entry, frame pair), and the
    reference's chain of operations, read index by index, is the same cell of the same five slices of the
    arguments it shares with the kernel. The second: both slice frames 1…7 of the second argument. -/
theorem algebraic : Cert.algebraic_KernelIdeal_ReferenceIdeal := by
  intro m ρ m' ρ' _ hagree
  refine ⟨fun c => whole (Slabs.laterRows m c) (Slabs.earlierRows m c) (Slabs.earlierValues m c) (Slabs.memoryKeys m c) (Slabs.memoryValues m c),
    fun c => Slabs.laterValues m c,
    KernelValue.run m ρ, ?_⟩
  refine (θ_run Cert.ReferenceIdeal.defs _ _).mono (fun _ h c => ?_) (Cert.ReferenceIdeal.Value.run (F := Ideal) m' ρ')
  obtain ⟨h37, h38, kept⟩ := h c
  obtain ⟨a0, a1, a2, a3⟩ := hagree c
  refine ⟨?_, ?_, kept⟩
  · rw [h37, Cert.ReferenceIdeal.Read.val_main_v37_eq, Reference.result_eq, a0, a1, a2, a3]
    rfl
  · rw [h38, a1]

end Cert.Proof.AttentionClaims

namespace Cert.Proof

theorem claim : Cert.Claim :=
  ⟨Cert.Kernel.Gen.facts, Cert.KernelIdeal.Gen.facts, Cert.ReferenceIdeal.Gen.facts, Cert.Pre_finite_inputs.Gen.facts,
    AttentionClaims.frame_kernel, AttentionClaims.frame_kernel_ideal, AttentionClaims.frame_reference,
    AttentionClaims.preserves, AttentionClaims.algebraic⟩

end Cert.Proof

end
